-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x512x512 : Shape := ⟨4, ![8, 128, 512, 512]⟩
abbrev S_ : Shape := ⟨0, ![]⟩

class Facts : Prop where
  bcast_S_S8x128x512x512 : S_.BroadcastsInDim S8x128x512x512 (![] : Fin 0 → Fin S8x128x512x512.rank)
  reducesTo_S8x128x512x512_S_d0_1_2_3 : S8x128x512x512.ReducesTo [0, 1, 2, 3] S_
  h_S_ : 0 < S_.numel

variable [Facts]

def fn {F : FTy → Type} [FloatOps F] (main_arg0 : FVec F S8x128x512x512 .f32) : IVec S_ 1 :=
  let main_v0 : FVec F S8x128x512x512 .f32 := Host.absf main_arg0
  let main_cst : FVec F S_ .f32 := constant S_ .f32 0x7F800000#32
  let main_v1 : FVec F S8x128x512x512 .f32 := broadcastInDim S8x128x512x512 ![] bcast_S_S8x128x512x512 main_cst
  let main_v2 : IVec S8x128x512x512 1 := cmpf .olt main_v0 main_v1
  let main_c : IVec S_ 1 := constantI S_ 1 1#1
  let main_v3 : IVec S_ 1 := (fun x v => Host.reduce IntOp.andi x v reducesTo_S8x128x512x512_S_d0_1_2_3 h_S_) main_v2 main_c
  main_v3
-- ==== Kernel.lean ====
abbrev S8x128x512x512 : Shape := ⟨4, ![8, 128, 512, 512]⟩
abbrev S513 : Shape := ⟨1, ![513]⟩
abbrev S8x1x512x512 : Shape := ⟨4, ![8, 1, 512, 512]⟩
abbrev S1x16x512x512 : Shape := ⟨4, ![1, 16, 512, 512]⟩
abbrev S1x1x512x512 : Shape := ⟨4, ![1, 1, 512, 512]⟩
abbrev S1x512x512 : Shape := ⟨3, ![1, 512, 512]⟩
abbrev S8x512x512 : Shape := ⟨3, ![8, 512, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S262144 : Shape := ⟨1, ![262144]⟩
abbrev S8x262144 : Shape := ⟨2, ![8, 262144]⟩
abbrev S262144x8 : Shape := ⟨2, ![262144, 8]⟩
abbrev S1023x8 : Shape := ⟨2, ![1023, 8]⟩
abbrev S262144x1 : Shape := ⟨2, ![262144, 1]⟩
abbrev S513x1 : Shape := ⟨2, ![513, 1]⟩
abbrev S513x8 : Shape := ⟨2, ![513, 8]⟩
abbrev S8x513 : Shape := ⟨2, ![8, 513]⟩
abbrev S8x1x513 : Shape := ⟨3, ![8, 1, 513]⟩

abbrev nBuf : Space → Nat
  | .hbm => 39
  | .vmem => 5
  | .smem => 0
  | _ => 0

abbrev bufTy : (tb : Table) → Fin (tcTables nBuf tb) → BufTy
  | .hbm, ⟨0, _⟩ => ⟨S8x128x512x512, .f32⟩
  | .hbm, ⟨1, _⟩ => ⟨S513, .i32⟩
  | .hbm, ⟨2, _⟩ => ⟨S513, .f32⟩
  | .hbm, ⟨3, _⟩ => ⟨S8x1x512x512, .f32⟩
  | .hbm, ⟨4, _⟩ => ⟨S8x512x512, .f32⟩
  | .hbm, ⟨5, _⟩ => ⟨S512, .i32⟩
  | .hbm, ⟨6, _⟩ => ⟨S512x1, .i32⟩
  | .hbm, ⟨7, _⟩ => ⟨S512, .i32⟩
  | .hbm, ⟨8, _⟩ => ⟨S1x512, .i32⟩
  | .hbm, ⟨9, _⟩ => ⟨S512x512, .i32⟩
  | .hbm, ⟨10, _⟩ => ⟨S512x512, .i32⟩
  | .hbm, ⟨11, _⟩ => ⟨S512x512, .i32⟩
  | .hbm, ⟨12, _⟩ => ⟨S_, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i32⟩
  | .hbm, ⟨18, _⟩ => ⟨S262144, .i32⟩
  | .hbm, ⟨19, _⟩ => ⟨S8x262144, .f32⟩
  | .hbm, ⟨20, _⟩ => ⟨S262144x8, .f32⟩
  | .hbm, ⟨21, _⟩ => ⟨S_, .f32⟩
  | .hbm, ⟨22, _⟩ => ⟨S1023x8, .f32⟩
  | .hbm, ⟨23, _⟩ => ⟨S262144x1, .i32⟩
  | .hbm, ⟨24, _⟩ => ⟨S1023x8, .f32⟩
  | .hbm, ⟨25, _⟩ => ⟨S513x1, .f32⟩
  | .hbm, ⟨26, _⟩ => ⟨S_, .i32⟩
  | .hbm, ⟨27, _⟩ => ⟨S513, .i32⟩
  | .hbm, ⟨28, _⟩ => ⟨S513, .i1⟩
  | .hbm, ⟨29, _⟩ => ⟨S_, .i32⟩
  | .hbm, ⟨30, _⟩ => ⟨S513, .i32⟩
  | .hbm, ⟨31, _⟩ => ⟨S513, .i32⟩
  | .hbm, ⟨32, _⟩ => ⟨S513, .i32⟩
  | .hbm, ⟨33, _⟩ => ⟨S513x1, .i32⟩
  | .hbm, ⟨34, _⟩ => ⟨S513x8, .f32⟩
  | .hbm, ⟨35, _⟩ => ⟨S513x8, .f32⟩
  | .hbm, ⟨36, _⟩ => ⟨S513x8, .f32⟩
  | .hbm, ⟨37, _⟩ => ⟨S8x513, .f32⟩
  | .hbm, ⟨38, _⟩ => ⟨S8x1x513, .f32⟩
  | .local _ .vmem, ⟨0, _⟩ => ⟨S1x16x512x512, .f32⟩
  | .local _ .vmem, ⟨1, _⟩ => ⟨S1x16x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1x512x512, .f32⟩
  | _, _ => ⟨S8x128x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_3 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_12 : BitVec 32 := 0#32
  let v13 : BitVec 1 := Scalar.cmpi .ne v12 c0_i32_12
  v13

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S1x1x512x512 : S1x1x512x512.ShapeCasts S1x1x512x512
  inb_S1x16x512x512_S1x16x512x512_0_0_0_0 : ∀ a, (![0, 0, 0, 0] : Fin 4 → Nat) a + S1x16x512x512.size a ≤ S1x16x512x512.size a
  h_S1x16x512x512 : 0 < S1x16x512x512.numel
  reduces_S1x16x512x512_S1x512x512 : S1x16x512x512.Reduces [1] S1x512x512
  shapeCasts_S1x512x512_S1x1x512x512 : S1x512x512.ShapeCasts S1x1x512x512
  shapeCasts_S8x1x512x512_S8x512x512 : S8x1x512x512.ShapeCasts S8x512x512
  bcast_S512_S512x1_0 : S512.BroadcastsInDim S512x1 (![0] : Fin 1 → Fin S512x1.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S512x1_S512x512_0_1 : S512x1.BroadcastsInDim S512x512 (![0, 1] : Fin 2 → Fin S512x512.rank)
  bcast_S_S512x512 : S_.BroadcastsInDim S512x512 (![] : Fin 0 → Fin S512x512.rank)
  shapeCasts_S512x512_S262144 : S512x512.ShapeCasts S262144
  shapeCasts_S8x512x512_S8x262144 : S8x512x512.ShapeCasts S8x262144
  transposes_S8x262144_S262144x8_1_0 : S8x262144.Transposes [1, 0] S262144x8
  bcast_S_S1023x8 : S_.BroadcastsInDim S1023x8 (![] : Fin 0 → Fin S1023x8.rank)
  bcast_S262144_S262144x1_0 : S262144.BroadcastsInDim S262144x1 (![0] : Fin 1 → Fin S262144x1.rank)
  bcast_S513_S513x1_0 : S513.BroadcastsInDim S513x1 (![0] : Fin 1 → Fin S513x1.rank)
  bcast_S_S513 : S_.BroadcastsInDim S513 (![] : Fin 0 → Fin S513.rank)
  bcast_S513x1_S513x8_0_1 : S513x1.BroadcastsInDim S513x8 (![0, 1] : Fin 2 → Fin S513x8.rank)
  transposes_S513x8_S8x513_1_0 : S513x8.Transposes [1, 0] S8x513
  bcast_S8x513_S8x1x513_0_2 : S8x513.BroadcastsInDim S8x1x513 (![0, 2] : Fin 2 → Fin S8x1x513.rank)
  scatter_S1023x8_S262144x1_S262144x8_1_0_0_1_wf : ScatterDims.WF S1023x8 S262144x1 S262144x8 [1] [0] [0] 1
  gather_S1023x8_S513x1_S513x8_1_0_n_n_0_1_18_wf : GatherDims.WF S1023x8 S513x1 S513x8 [1] [0] [] [0] [] 1 ![1, 8]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512x512.size a ≤ S8x128x512x512.size a
  hwx0_0 : ∀ i : grid0.Coords, EltTy.bits .f32 = 32 ∨ (Rect.block (s := S8x128x512x512) S1x16x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S8x1x512x512.size a
  hwx0_1 : ∀ i : grid0.Coords, EltTy.bits .f32 = 32 ∨ (Rect.block (s := S8x1x512x512) S1x1x512x512.size (cc0_transform_1 i) (hinb0_1 i)).WholeWords (EltTy.packing .f32)

variable [Facts₀]

def scatter_S1023x8_S262144x1_S262144x8_1_0_0_1 : ScatterDims S1023x8 S262144x1 S262144x8 where
  updateWindowDims := [1]
  insertedWindowDims := [0]
  scatterDimsToOperandDims := [0]
  indexVectorDim := 1
  wf := scatter_S1023x8_S262144x1_S262144x8_1_0_0_1_wf
def gather_S1023x8_S513x1_S513x8_1_0_n_n_0_1_18 : GatherDims S1023x8 S513x1 S513x8 where
  offsetDims := [1]
  collapsedSliceDims := [0]
  operandBatchingDims := []
  startIndicesBatchingDims := []
  startIndexMap := [0]
  indexVectorDim := 1
  sliceSizes := ![1, 8]
  wf := gather_S1023x8_S513x1_S513x8_1_0_n_n_0_1_18_wf

abbrev win0_0 : Pipeline.Window sig grid0 :=
  Pipeline.Window.ofSpec (Memref.whole main_arg0) S1x16x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S8x128x512x512 : Shape := ⟨4, ![8, 128, 512, 512]⟩
abbrev S513 : Shape := ⟨1, ![513]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S262144 : Shape := ⟨1, ![262144]⟩
abbrev S1024x262144 : Shape := ⟨2, ![1024, 262144]⟩
abbrev S262144x1024 : Shape := ⟨2, ![262144, 1024]⟩
abbrev S1023x1024 : Shape := ⟨2, ![1023, 1024]⟩
abbrev S262144x1 : Shape := ⟨2, ![262144, 1]⟩
abbrev S1023x8x128 : Shape := ⟨3, ![1023, 8, 128]⟩
abbrev S1023x8 : Shape := ⟨2, ![1023, 8]⟩
abbrev S513x1 : Shape := ⟨2, ![513, 1]⟩
abbrev S513x8 : Shape := ⟨2, ![513, 8]⟩
abbrev S8x513 : Shape := ⟨2, ![8, 513]⟩
abbrev S8x1x513 : Shape := ⟨3, ![8, 1, 513]⟩

abbrev nBuf : Space → Nat
  | .hbm => 40
  | .vmem => 0
  | .smem => 0
  | _ => 0

abbrev bufTy : (tb : Table) → Fin (tcTables nBuf tb) → BufTy
  | .hbm, ⟨0, _⟩ => ⟨S8x128x512x512, .f32⟩
  | .hbm, ⟨1, _⟩ => ⟨S513, .i32⟩
  | .hbm, ⟨2, _⟩ => ⟨S513, .f32⟩
  | .hbm, ⟨3, _⟩ => ⟨S512, .i32⟩
  | .hbm, ⟨4, _⟩ => ⟨S512x1, .i32⟩
  | .hbm, ⟨5, _⟩ => ⟨S512, .i32⟩
  | .hbm, ⟨6, _⟩ => ⟨S1x512, .i32⟩
  | .hbm, ⟨7, _⟩ => ⟨S512x512, .i32⟩
  | .hbm, ⟨8, _⟩ => ⟨S512x512, .i32⟩
  | .hbm, ⟨9, _⟩ => ⟨S512x512, .i32⟩
  | .hbm, ⟨10, _⟩ => ⟨S_, .i32⟩
  | .hbm, ⟨11, _⟩ => ⟨S512x512, .i32⟩
  | .hbm, ⟨12, _⟩ => ⟨S512x512, .i32⟩
  | .hbm, ⟨13, _⟩ => ⟨S_, .i32⟩
  | .hbm, ⟨14, _⟩ => ⟨S512x512, .i32⟩
  | .hbm, ⟨15, _⟩ => ⟨S512x512, .i32⟩
  | .hbm, ⟨16, _⟩ => ⟨S262144, .i32⟩
  | .hbm, ⟨17, _⟩ => ⟨S1024x262144, .f32⟩
  | .hbm, ⟨18, _⟩ => ⟨S262144x1024, .f32⟩
  | .hbm, ⟨19, _⟩ => ⟨S_, .f32⟩
  | .hbm, ⟨20, _⟩ => ⟨S1023x1024, .f32⟩
  | .hbm, ⟨21, _⟩ => ⟨S262144x1, .i32⟩
  | .hbm, ⟨22, _⟩ => ⟨S1023x1024, .f32⟩
  | .hbm, ⟨23, _⟩ => ⟨S1023x8x128, .f32⟩
  | .hbm, ⟨24, _⟩ => ⟨S_, .f32⟩
  | .hbm, ⟨25, _⟩ => ⟨S1023x8, .f32⟩
  | .hbm, ⟨26, _⟩ => ⟨S513x1, .f32⟩
  | .hbm, ⟨27, _⟩ => ⟨S_, .i32⟩
  | .hbm, ⟨28, _⟩ => ⟨S513, .i32⟩
  | .hbm, ⟨29, _⟩ => ⟨S513, .i1⟩
  | .hbm, ⟨30, _⟩ => ⟨S_, .i32⟩
  | .hbm, ⟨31, _⟩ => ⟨S513, .i32⟩
  | .hbm, ⟨32, _⟩ => ⟨S513, .i32⟩
  | .hbm, ⟨33, _⟩ => ⟨S513, .i32⟩
  | .hbm, ⟨34, _⟩ => ⟨S513x1, .i32⟩
  | .hbm, ⟨35, _⟩ => ⟨S513x8, .f32⟩
  | .hbm, ⟨36, _⟩ => ⟨S513x8, .f32⟩
  | .hbm, ⟨37, _⟩ => ⟨S513x8, .f32⟩
  | .hbm, ⟨38, _⟩ => ⟨S8x513, .f32⟩
  | .hbm, ⟨39, _⟩ => ⟨S8x1x513, .f32⟩
  | _, _ => ⟨S8x128x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_c_4 : Ref sig .tc := ⟨.hbm, 27, rfl⟩
abbrev main_v20 : Ref sig .tc := ⟨.hbm, 28, rfl⟩
abbrev main_v21 : Ref sig .tc := ⟨.hbm, 29, rfl⟩
abbrev main_c_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S512x1_S512x512_0_1 : S512x1.BroadcastsInDim S512x512 (![0, 1] : Fin 2 → Fin S512x512.rank)
  bcast_S_S512x512 : S_.BroadcastsInDim S512x512 (![] : Fin 0 → Fin S512x512.rank)
  shapeCasts_S512x512_S262144 : S512x512.ShapeCasts S262144
  shapeCasts_S8x128x512x512_S1024x262144 : S8x128x512x512.ShapeCasts S1024x262144
  transposes_S1024x262144_S262144x1024_1_0 : S1024x262144.Transposes [1, 0] S262144x1024
  bcast_S_S1023x1024 : S_.BroadcastsInDim S1023x1024 (![] : Fin 0 → Fin S1023x1024.rank)
  bcast_S262144_S262144x1_0 : S262144.BroadcastsInDim S262144x1 (![0] : Fin 1 → Fin S262144x1.rank)
  shapeCasts_S1023x1024_S1023x8x128 : S1023x1024.ShapeCasts S1023x8x128
  reducesTo_S1023x8x128_S1023x8_d2 : S1023x8x128.ReducesTo [2] S1023x8
  h_S_ : 0 < S_.numel
  bcast_S513_S513x1_0 : S513.BroadcastsInDim S513x1 (![0] : Fin 1 → Fin S513x1.rank)
  bcast_S_S513 : S_.BroadcastsInDim S513 (![] : Fin 0 → Fin S513.rank)
  bcast_S513x1_S513x8_0_1 : S513x1.BroadcastsInDim S513x8 (![0, 1] : Fin 2 → Fin S513x8.rank)
  transposes_S513x8_S8x513_1_0 : S513x8.Transposes [1, 0] S8x513
  bcast_S8x513_S8x1x513_0_2 : S8x513.BroadcastsInDim S8x1x513 (![0, 2] : Fin 2 → Fin S8x1x513.rank)
  scatter_S1023x1024_S262144x1_S262144x1024_1_0_0_1_wf : ScatterDims.WF S1023x1024 S262144x1 S262144x1024 [1] [0] [0] 1
  gather_S1023x8_S513x1_S513x8_1_0_n_n_0_1_18_wf : GatherDims.WF S1023x8 S513x1 S513x8 [1] [0] [] [0] [] 1 ![1, 8]

variable [Facts₀]

def scatter_S1023x1024_S262144x1_S262144x1024_1_0_0_1 : ScatterDims S1023x1024 S262144x1 S262144x1024 where
  updateWindowDims := [1]
  insertedWindowDims := [0]
  scatterDimsToOperandDims := [0]
  indexVectorDim := 1
  wf := scatter_S1023x1024_S262144x1_S262144x1024_1_0_0_1_wf
def gather_S1023x8_S513x1_S513x8_1_0_n_n_0_1_18 : GatherDims S1023x8 S513x1 S513x8 where
  offsetDims := [1]
  collapsedSliceDims := [0]
  operandBatchingDims := []
  startIndicesBatchingDims := []
  startIndexMap := [0]
  indexVectorDim := 1
  sliceSizes := ![1, 8]
  wf := gather_S1023x8_S513x1_S513x8_1_0_n_n_0_1_18_wf

class Facts : Prop extends Facts₀ where

variable [Facts]
-- ==== Proof.KernelBody.lean ====
/-
  What one grid step of the channel-sum kernel leaves behind, as values.

  The kernel walks a grid of 8 x 8 steps; step (b, s) sees the block of 16 channels 16 s .. 16 s + 15 of image b and keeps
  a running total (one 512 x 512 plane) in a buffer of its own. Each step ends with ONE store through the whole buffer, so
  what the buffer holds afterwards is that store's value: the previous total plus the block's sum over its 16 channels —
  at the first step of a row the previous total is the zero plane the step has just stored and read back. The last step
  of a row reads the new total back and stores it, whole, into the output block: the same value once more.
-/
import proofs.«127440_j78477642433377_1_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

namespace Cert.KernelIdeal.Body
open Cert.KernelIdeal Cert.KernelIdeal.Gen
variable {F : FTy → Type} [FloatOps F]

/-- The zero offsets of a rank-4 access, as the constant function. -/
theorem hz : (![0, 0, 0, 0] : Fin 4 → Nat) = fun _ => 0 := funext fun a => by fin_cases a <;> rfl

/-- A step that is neither the first nor the last of its row: the accumulator, holding `acc`, ends at
    `acc + (the block's sum over its 16 channels)` — the one whole-buffer store's value, whose loads read whole buffers. -/
theorem scr_B (c : Dev nD) (i : grid0.Coords) (a2 : Memref sig .tc .vmem S1x16x512x512 .f32) (h2 : a2.IsWhole)
    (a3 : Memref sig .tc .vmem S1x1x512x512 .f32) (h3 : a3.IsWhole) (a4 : Memref sig .tc .vmem S1x1x512x512 .f32) (h4 : a4.IsWhole)
    (hc0 : ¬cond0_0 i) (hc1 : ¬cond0_1 i) (x0 : Vec F S1x16x512x512 .f32) (xs0 : Vec F S1x1x512x512 .f32) :
    sout0_B_0 c i a2 h2 a3 h3 a4 h4 hc0 hc1 x0 xs0 = k0_pay2 xs0 x0 := by
  unfold sout0_B_0
  rw [View.read_writes_eq_canon _ _ _ (scover0_B_0 c i a2 h2 a3 h3 a4 h4 hc0 hc1 x0 xs0)]
  unfold kernelRun0_B
  dsimp only
  rw [View.canon_unit_zero hz]
  simp only [View.readAt_eq_ld, h4.read_unread, h2.read_unread, View.ld_unit_zero (S := S1x1x512x512) hz,
    View.ld_unit_zero (S := S1x16x512x512) hz]

/-- The first step of a row: the accumulator is zeroed, read back, and ends at `0 + (the block's channel sum)`. -/
theorem scr_A (c : Dev nD) (i : grid0.Coords) (a2 : Memref sig .tc .vmem S1x16x512x512 .f32) (h2 : a2.IsWhole)
    (a3 : Memref sig .tc .vmem S1x1x512x512 .f32) (h3 : a3.IsWhole) (a4 : Memref sig .tc .vmem S1x1x512x512 .f32) (h4 : a4.IsWhole)
    (hc0 : cond0_0 i) (hc1 : ¬cond0_1 i) (x0 : Vec F S1x16x512x512 .f32) :
    sout0_A_0 c i a2 h2 a3 h3 a4 h4 hc0 hc1 x0 = k0_pay2 (k0_pay1 (F := F)) x0 := by
  unfold sout0_A_0
  rw [View.read_writes_eq_canon _ _ _ (scover0_A_0 c i a2 h2 a3 h3 a4 h4 hc0 hc1 x0)]
  unfold kernelRun0_A
  dsimp only
  sl_unfold_words
  rw [View.canon_cons_unit_zero (S := S1x1x512x512) hz, View.readCov_unit_zero (S := S1x1x512x512) _ hz]
  simp only [View.readAt_eq_ld, h2.read_unread, View.ld_unit_zero (S := S1x16x512x512) hz]

/-- The last step of a row leaves the accumulator at `acc + (the block's channel sum)` as well, -/
theorem scr_C (c : Dev nD) (i : grid0.Coords) (a2 : Memref sig .tc .vmem S1x16x512x512 .f32) (h2 : a2.IsWhole)
    (a3 : Memref sig .tc .vmem S1x1x512x512 .f32) (h3 : a3.IsWhole) (a4 : Memref sig .tc .vmem S1x1x512x512 .f32) (h4 : a4.IsWhole)
    (hc0 : ¬cond0_0 i) (hc1 : cond0_1 i) (x0 : Vec F S1x16x512x512 .f32) (xs0 : Vec F S1x1x512x512 .f32) :
    sout0_C_0 c i a2 h2 a3 h3 a4 h4 hc0 hc1 x0 xs0 = k0_pay2 xs0 x0 := by
  unfold sout0_C_0
  rw [View.read_writes_eq_canon _ _ _ (scover0_C_0 c i a2 h2 a3 h3 a4 h4 hc0 hc1 x0 xs0)]
  unfold kernelRun0_C
  dsimp only
  sl_unfold_words
  rw [View.canon_unit_zero hz]
  simp only [View.readAt_eq_ld, h4.read_unread, h2.read_unread, View.ld_unit_zero (S := S1x1x512x512) hz,
    View.ld_unit_zero (S := S1x16x512x512) hz]

/-- and copies it, read back whole, into the output block: the same value. -/
theorem out_C (c : Dev nD) (i : grid0.Coords) (a2 : Memref sig .tc .vmem S1x16x512x512 .f32) (h2 : a2.IsWhole)
    (a3 : Memref sig .tc .vmem S1x1x512x512 .f32) (h3 : a3.IsWhole) (a4 : Memref sig .tc .vmem S1x1x512x512 .f32) (h4 : a4.IsWhole)
    (hc0 : ¬cond0_0 i) (hc1 : cond0_1 i) (x0 : Vec F S1x16x512x512 .f32) (xs0 : Vec F S1x1x512x512 .f32) :
    out0_C_1 c i a2 h2 a3 h3 a4 h4 hc0 hc1 x0 xs0 = k0_pay2 xs0 x0 := by
  unfold out0_C_1
  rw [View.read_writes_eq_canon _ _ _ (cover0_C_1 c i a2 h2 a3 h3 a4 h4 hc0 hc1 x0 xs0)]
  unfold kernelRun0_C
  dsimp only
  sl_unfold_words
  rw [View.canon_unit_zero hz, View.readCov_unit_zero (S := S1x1x512x512) _ hz]
  simp only [View.readAt_eq_ld, h4.read_unread, h2.read_unread, View.ld_unit_zero (S := S1x1x512x512) hz,
    View.ld_unit_zero (S := S1x16x512x512) hz]

/-! ## The same, point by point: what the kernel's own buffer and the output block hold after a step -/

section Points
variable (m : (ℓ : Loc nD τ sig) → Buf (Elt F) ℓ)

/-- After a row's first step the kernel's own buffer holds the zero plane plus the step's block sum. -/
theorem scr_first (c : Dev nD) (t : Fin cfg0.N) (h0 : t.val % 8 = 0) :
    (outsAt0 m c t.val t.isLt).2 = k0_pay2 (k0_pay1 (F := F)) (iblk m c 0 t) := by
  have h1 : ¬ t.val % 8 = 7 := by omega
  rw [outsAt0_A m c t h0 h1]
  dsimp only
  exact scr_A c (grid0.coords t) (ms0_0 t) (hs0_0 t) (ms0_1 t) (hs0_1 t) scM0_0
        (Memref.isWhole_whole _) ((hcond0_0 t).mpr h0) (fun hh => h1 ((hcond0_1 t).mp hh)) (iblk m c 0 t)

/-- After any other step it holds what the step before left plus the step's block sum. -/
theorem scr_next (c : Dev nD) (t : Fin cfg0.N) (h0 : ¬ t.val % 8 = 0) :
    (outsAt0 m c t.val t.isLt).2
      = k0_pay2 (outsAt0 m c (t.val - 1) (Nat.lt_of_le_of_lt (Nat.sub_le _ _) t.isLt)).2 (iblk m c 0 t) := by
  by_cases h1 : t.val % 8 = 7
  · rw [outsAt0_C m c t h0 h1]
    dsimp only
    exact scr_C c (grid0.coords t) (ms0_0 t) (hs0_0 t) (ms0_1 t) (hs0_1 t) scM0_0
        (Memref.isWhole_whole _) (fun hh => h0 ((hcond0_0 t).mp hh)) ((hcond0_1 t).mpr h1) (iblk m c 0 t)
        (outsAt0 m c (t.val - 1) (Nat.lt_of_le_of_lt (Nat.sub_le _ _) t.isLt)).2
  · rw [outsAt0_B m c t h0 h1]
    dsimp only
    exact scr_B c (grid0.coords t) (ms0_0 t) (hs0_0 t) (ms0_1 t) (hs0_1 t) scM0_0
        (Memref.isWhole_whole _) (fun hh => h0 ((hcond0_0 t).mp hh)) (fun hh => h1 ((hcond0_1 t).mp hh)) (iblk m c 0 t)
        (outsAt0 m c (t.val - 1) (Nat.lt_of_le_of_lt (Nat.sub_le _ _) t.isLt)).2

/-- A row's last step leaves the same plane in the output block as in its own buffer. -/
theorem out_last (c : Dev nD) (t : Fin cfg0.N) (h7 : t.val % 8 = 7) :
    (outsAt0 m c t.val t.isLt).1 = (outsAt0 m c t.val t.isLt).2 := by
  have h0 : ¬ t.val % 8 = 0 := by omega
  rw [outsAt0_C m c t h0 h7]
  dsimp only
  exact (out_C c (grid0.coords t) (ms0_0 t) (hs0_0 t) (ms0_1 t) (hs0_1 t) scM0_0
      (Memref.isWhole_whole _) (fun hh => h0 ((hcond0_0 t).mp hh)) ((hcond0_1 t).mpr h7) (iblk m c 0 t)
      (outsAt0 m c (t.val - 1) (Nat.lt_of_le_of_lt (Nat.sub_le _ _) t.isLt)).2).trans
    (scr_C c (grid0.coords t) (ms0_0 t) (hs0_0 t) (ms0_1 t) (hs0_1 t) scM0_0
      (Memref.isWhole_whole _) (fun hh => h0 ((hcond0_0 t).mp hh)) ((hcond0_1 t).mpr h7) (iblk m c 0 t)
      (outsAt0 m c (t.val - 1) (Nat.lt_of_le_of_lt (Nat.sub_le _ _) t.isLt)).2).symm

end Points

end Cert.KernelIdeal.Body
end
-- ==== Proof.KernelStep.lean ====
/-
  One grid step of the channel-sum kernel, entry by entry over the extended reals.

  A step's stored value at pixel (h, w) is the running total it found there plus the sum, over the 16 channels of its
  block, of the block's values at that pixel (a lane reduction over the channel axis, then a unit axis put back); the
  plane a row's first step starts from is zero. Step t's block is the slab of channels 16 (t mod 8) .. 16 (t mod 8) + 15
  of image t / 8 of the argument, so its entry (0, k, h, w) is the argument's entry (t / 8, 16 (t mod 8) + k, h, w).
-/
import proofs.«127440_j78477642433377_1_alg».proof.Proof.Gen.KernelIdeal.Frame
import Idealize.ShloMosaic.Lib.Pipeline.Value
import Idealize.ShloMosaic.Lib.ValueIdx
import Idealize.ShloMosaic.PureOps.Ideal.Laws

noncomputable section
open Idealize.ShloMosaic Idealize.ShloMosaic.TcCoe Idealize.SL.Sem
open Idealize.ShloMosaic.ValueIdx

namespace Cert.KernelIdeal.Step
open Cert.KernelIdeal Cert.KernelIdeal.Gen

/-- The plane a row's first step stores before accumulating is zero everywhere. -/
theorem pay1_apply (j : S1x1x512x512.Idx) : k0_pay1 (F := Ideal) j = 0 := by
  unfold k0_pay1
  rw [shapeCast_self]
  exact Ideal.ofBits_zero_f32

/-- One step's stored value at pixel (h, w): the total it found there plus the block's 16 channel values at that pixel. -/
theorem pay2_apply (v3 : Vec Ideal S1x1x512x512 .f32) (v4 : Vec Ideal S1x16x512x512 .f32) (h : Fin 512) (w : Fin 512) :
    k0_pay2 v3 v4 (ix4 (0 : Fin 1) (0 : Fin 1) h w) = v3 (ix4 (0 : Fin 1) (0 : Fin 1) h w) + ∑ k : Fin 16, v4 (ix4 (0 : Fin 1) k h w) := by
  unfold k0_pay2
  dsimp only
  rw [shapeCast_self]
  rw [addf_apply]
  refine congrArg (v3 (ix4 (0 : Fin 1) (0 : Fin 1) h w) + ·) ?_
  refine (shapeCast_addUnit_apply ![1, 512, 512] _ _ _).trans ?_
  refine (Ideal.multiReduction_add_single v4 _ reduces_S1x16x512x512_S1x512x512 _ _ _).trans ?_
  refine Finset.sum_congr rfl fun k _ => congrArg v4 (funext fun a => ?_)
  match a with
  | ⟨0, _⟩ => exact Fin.ext rfl
  | ⟨1, _⟩ => exact Fin.ext rfl
  | ⟨2, _⟩ => exact Fin.ext rfl
  | ⟨3, _⟩ => exact Fin.ext rfl

/-! ## Which entries of the argument a step's block holds -/

section Block
variable {F : FTy → Type} [FloatOps F]
variable (m : (ℓ : Loc nD τ sig) → Buf (Elt F) ℓ)

/-- Step n works on image (n / 8) mod 8 -/
def img (n : Nat) : Fin 8 := ⟨n / 8 % 8, Nat.mod_lt _ (by decide)⟩
/-- and its block's channel k is channel 16 (n mod 8) + k of that image. -/
def chan (n : Nat) (k : Fin 16) : Fin 128 :=
  ⟨16 * (n % 8) + k.val, by have := k.isLt; have := Nat.mod_lt n (by decide : 0 < 8); omega⟩

/-- The input window's block numbers at step t, axis by axis (decided over the 64 steps). -/
theorem idx_in : ∀ t : Fin cfg0.N, win0_0.index t (0 : Fin 4) = t.val / 8 % 8 ∧ win0_0.index t (1 : Fin 4) = t.val % 8
    ∧ win0_0.index t (2 : Fin 4) = 0 ∧ win0_0.index t (3 : Fin 4) = 0 :=
  (by decide +kernel : ∀ t : Fin grid0.N, _)

/-- Entry (0, k, h, w) of step t's block is entry (image, 16 (t mod 8) + k, h, w) of the argument. -/
theorem iblk_apply (c : Dev nD) (t : Fin cfg0.N) (k : Fin 16) (h w : Fin 512) :
    (iblk m c 0 t : Vec F S1x16x512x512 .f32) (ix4 (0 : Fin 1) k h w)
      = V m c main_arg0 (ix4 (img t.val) (chan t.val k) h w) := by
  obtain ⟨e0, e1, e2, e3⟩ := idx_in t
  unfold iblk
  rw [View.read_apply]
  show V m c main_arg0 (((cfg0.win 0).blk t).view.emb (ix4 (0 : Fin 1) k h w)) = _
  refine congrArg (V m c main_arg0) (funext fun a => Fin.ext ?_)
  match a with
  | ⟨0, _⟩ => show win0_0.index t (0 : Fin 4) * 1 + 1 * 0 = t.val / 8 % 8; omega
  | ⟨1, _⟩ => show win0_0.index t (1 : Fin 4) * 16 + 1 * k.val = 16 * (t.val % 8) + k.val; omega
  | ⟨2, _⟩ => show win0_0.index t (2 : Fin 4) * 512 + 1 * h.val = h.val; omega
  | ⟨3, _⟩ => show win0_0.index t (3 : Fin 4) * 512 + 1 * w.val = w.val; omega

end Block

end Cert.KernelIdeal.Step
end
-- ==== Proof.ChanSum.lean ====
/-
  The sum over the channel axis.

  For an array X of shape [8, 128, 512, 512] (images, channels, rows, columns) over the extended reals, the channel sum
  at (b, h, w) is the sum over the 128 channels ch of X(b, ch, h, w); as an array of shape [8, 1, 512, 512] it puts that
  value at (b, 0, h, w).
-/
import Idealize.ShloMosaic.PureOps.Ideal
import Idealize.ShloMosaic.Lib.ValueIdx

noncomputable section

namespace Cert.DiagPool
open Idealize.ShloMosaic Idealize.ShloMosaic.ValueIdx

/-- The sum over all 128 channels of image b at pixel (h, w). -/
def chanSum (X : (⟨4, ![8, 128, 512, 512]⟩ : Shape).Idx → EReal) (b : Fin 8) (h w : Fin 512) : EReal :=
  ∑ ch : Fin 128, X (ix4 b ch h w)

/-- The channel sums as an array with a unit channel axis. -/
def chanPlane (X : (⟨4, ![8, 128, 512, 512]⟩ : Shape).Idx → EReal) : (⟨4, ![8, 1, 512, 512]⟩ : Shape).Idx → EReal :=
  fun i => chanSum X (i 0) (i 2) (i 3)

theorem chanPlane_apply (X : (⟨4, ![8, 128, 512, 512]⟩ : Shape).Idx → EReal) (b : Fin 8) (h w : Fin 512) :
    chanPlane X (ix4 b (0 : Fin 1) h w) = chanSum X b h w := rfl

end Cert.DiagPool
end
-- ==== Proof.LibRowFold.lean ====
/-
  A running total that is reset at the start of every row of J consecutive steps.

  Let f n be what a total holds after step n, and M n what step n adds. If a step whose number is a
  multiple of J leaves 0 + M n, and every other step leaves what the step before left plus its own
  addend, then after step t the total is the sum of the addends of the steps of t's row up to t:
  the steps J * (t / J) + s for s = 0 .. t % J. This holds in any additive commutative monoid, so for
  extended reals with no finiteness; the totals may be families indexed by any type.
-/
import Idealize.ShloMosaic.Lib.Pipeline.Value

namespace Cert.RowFold

open scoped BigOperators
open Idealize.ShloMosaic

/-- The total after step t is the sum of its row's addends up to t. -/
theorem rowfold {ι β : Type} [AddCommMonoid β] {N : Nat} (J : Nat) (hJ : 0 < J)
    (f : (n : Nat) → n < N → ι → β) (M : Nat → ι → β)
    (h0 : ∀ (n : Nat) (h : n < N), n % J = 0 → ∀ p, f n h p = 0 + M n p)
    (hs : ∀ (n : Nat) (h : n + 1 < N), ¬(n + 1) % J = 0 →
      ∀ p, f (n + 1) h p = f n (Nat.lt_of_succ_lt h) p + M (n + 1) p)
    (t : Nat) (ht : t < N) (p : ι) :
    f t ht p = ∑ s ∈ Finset.range (t % J + 1), M (J * (t / J) + s) p := by
  have h' : J * (t / J) + t % J < N := by rw [Nat.div_add_mod]; exact ht
  rw [Pipeline.eq_accAt_of_mod f J (fun n _ p => 0 + M n p) (fun n _ acc p => acc p + M n p)
    (fun n h hn => funext (h0 n h hn)) (fun n h hn => funext (hs n h hn)) hJ t ht h']
  rw [Pipeline.accAt_add_apply (fun n _ p => 0 + M n p) (fun n _ acc p => acc p + M n p) (fun _ => 0) M
    (J * (t / J)) (t % J) (fun _ _ => rfl) (fun _ _ _ _ _ _ => rfl) (t % J) le_rfl h' p, zero_add]

end Cert.RowFold
-- ==== Proof.LibBlockSumN.lean ====
/-
  A sum over `b · n` indices, taken in `b` blocks of `n`.

  In any additive commutative monoid, a sum over the indices `0 … b·n − 1` is the sum over the blocks
  `t = 0 … b − 1` of the sums over the positions `j = 0 … n − 1` inside the block, the index being `t · n + j`:
  the map `(t, j) ↦ t · n + j` is a bijection from pairs to indices, and a sum over pairs is an iterated sum.
  Nothing here needs the summands to be finite, so it holds for extended reals: it is the law that joins a
  contraction accumulated block by block with the whole contraction.
-/
import Idealize.ShloMosaic.Lib.ValueIdx

namespace Cert.BlockSumN

open scoped BigOperators

/-- Position `j` of block `t` is an index below `b · n`. -/
theorem blk_lt {b n : Nat} (t : Fin b) (j : Fin n) : t.val * n + j.val < b * n := by
  have h1 : t.val * n + n ≤ b * n := by
    have : (t.val + 1) * n ≤ b * n := Nat.mul_le_mul_right n t.isLt
    simpa [Nat.succ_mul] using this
  have := j.isLt
  omega

/-- A sum over `b · n` indices is the sum over the `b` blocks of the sums over the `n` positions in a block. -/
theorem sum_blocks {α : Type} [AddCommMonoid α] (b n : Nat) (f : Fin (b * n) → α) :
    ∑ k : Fin (b * n), f k = ∑ t : Fin b, ∑ j : Fin n, f ⟨t.val * n + j.val, blk_lt t j⟩ := by
  rw [← Equiv.sum_comp finProdFinEquiv f, Fintype.sum_prod_type]
  refine Finset.sum_congr rfl fun t _ => Finset.sum_congr rfl fun j _ => ?_
  congr 1
  apply Fin.ext
  show j.val + n * t.val = t.val * n + j.val
  rw [Nat.mul_comm, Nat.add_comm]

/-- The same over `Fin K` with `K = b · n` given as an equation (for a literal `K`). -/
theorem sum_blocks_of_eq {α : Type} [AddCommMonoid α] {K : Nat} (b n : Nat) (hK : K = b * n) (f : Fin K → α) :
    ∑ k : Fin K, f k = ∑ t : Fin b, ∑ j : Fin n, f ⟨t.val * n + j.val, hK ▸ blk_lt t j⟩ := by
  subst hK
  exact sum_blocks b n f

end Cert.BlockSumN
-- ==== Proof.KernelAcc.lean ====
/-
  The running total over a row of grid steps, and what a row's last step writes out.

  After step n the kernel's own buffer holds, at pixel (h, w), the sum of the blocks' channel sums over the steps of n's
  row up to n: the first step of a row starts from zero, every other step adds its block's 16 channels to what the step
  before left. A row is the 8 steps of one image, and its blocks are the 8 slabs of 16 channels, so after the row's last
  step the total is the sum over all 128 channels of that image at the pixel — sums over extended reals regroup freely.
  That last step also copies the total into the output block.
-/
import proofs.«127440_j78477642433377_1_alg».proof.Proof.KernelBody
import proofs.«127440_j78477642433377_1_alg».proof.Proof.KernelStep
import proofs.«127440_j78477642433377_1_alg».proof.Proof.ChanSum
import proofs.«127440_j78477642433377_1_alg».proof.Proof.LibRowFold
import proofs.«127440_j78477642433377_1_alg».proof.Proof.LibBlockSumN

noncomputable section
open Idealize.ShloMosaic Idealize.ShloMosaic.TcCoe Idealize.SL.Sem
open Idealize.ShloMosaic.ValueIdx

namespace Cert.KernelIdeal.Acc
open Cert.KernelIdeal Cert.KernelIdeal.Gen Cert.KernelIdeal.Body Cert.KernelIdeal.Step Cert.DiagPool

variable (m : (ℓ : Loc nD τ sig) → Buf (Elt Ideal) ℓ)

/-- What step n adds at pixel p: its block's 16 channel values there. -/
def part (c : Dev nD) (n : Nat) (p : Fin 512 × Fin 512) : EReal :=
  ∑ k : Fin 16, V m c main_arg0 (ix4 (img n) (chan n k) p.1 p.2)

/-- What the kernel's own buffer holds at pixel p after step n. -/
def total (c : Dev nD) (n : Nat) (hn : n < cfg0.N) (p : Fin 512 × Fin 512) : EReal :=
  (outsAt0 m c n hn).2 (ix4 (0 : Fin 1) (0 : Fin 1) p.1 p.2)

/-- A row's first step leaves zero plus its own addend. -/
theorem total_first (c : Dev nD) (n : Nat) (hn : n < cfg0.N) (h0 : n % 8 = 0) (p : Fin 512 × Fin 512) :
    total m c n hn p = 0 + part m c n p := by
  unfold total part
  refine (congrFun (scr_first m c ⟨n, hn⟩ h0) (ix4 (0 : Fin 1) (0 : Fin 1) p.1 p.2)).trans ?_
  refine (pay2_apply (k0_pay1 (F := Ideal)) (iblk m c 0 ⟨n, hn⟩) p.1 p.2).trans ?_
  rw [pay1_apply]
  exact congrArg (0 + ·) (Finset.sum_congr rfl fun k _ => iblk_apply m c ⟨n, hn⟩ k p.1 p.2)

/-- Every other step leaves what the step before left plus its own addend. -/
theorem total_next (c : Dev nD) (n : Nat) (hn : n + 1 < cfg0.N) (h0 : ¬(n + 1) % 8 = 0) (p : Fin 512 × Fin 512) :
    total m c (n + 1) hn p = total m c n (Nat.lt_of_succ_lt hn) p + part m c (n + 1) p := by
  unfold total part
  refine (congrFun (scr_next m c ⟨n + 1, hn⟩ h0) (ix4 (0 : Fin 1) (0 : Fin 1) p.1 p.2)).trans ?_
  refine (pay2_apply (outsAt0 m c n (Nat.lt_of_succ_lt hn)).2 (iblk m c 0 ⟨n + 1, hn⟩) p.1 p.2).trans ?_
  exact congrArg (_ + ·) (Finset.sum_congr rfl fun k _ => iblk_apply m c ⟨n + 1, hn⟩ k p.1 p.2)

/-- So after step t the total is the sum of the addends of t's row up to t. -/
theorem total_eq (c : Dev nD) (t : Nat) (ht : t < cfg0.N) (p : Fin 512 × Fin 512) :
    total m c t ht p = ∑ s ∈ Finset.range (t % 8 + 1), part m c (8 * (t / 8) + s) p :=
  Cert.RowFold.rowfold 8 (by decide) (fun n hn p => total m c n hn p) (fun n p => part m c n p)
    (fun n hn h0 p => total_first m c n hn h0 p) (fun n hn h0 p => total_next m c n hn h0 p) t ht p

/-- After a row's last step the total is the whole channel sum of the row's image. -/
theorem total_last (c : Dev nD) (t : Nat) (ht : t < cfg0.N) (h7 : t % 8 = 7) (p : Fin 512 × Fin 512) :
    total m c t ht p = chanSum (V m c main_arg0) (img t) p.1 p.2 := by
  rw [total_eq, h7]
  unfold chanSum part
  rw [Cert.BlockSumN.sum_blocks_of_eq 8 16 (by decide : 128 = 8 * 16), Finset.sum_range]
  refine Finset.sum_congr rfl fun s _ => Finset.sum_congr rfl fun k _ => ?_
  have hs := s.isLt
  have hk := k.isLt
  have e1 : img (8 * (t / 8) + s.val) = img t := Fin.ext (by show (8 * (t / 8) + s.val) / 8 % 8 = t / 8 % 8; omega)
  have e2 : chan (8 * (t / 8) + s.val) k = ⟨s.val * 16 + k.val, by omega⟩ :=
    Fin.ext (by show 16 * ((8 * (t / 8) + s.val) % 8) + k.val = s.val * 16 + k.val; omega)
  rw [e1, e2]

/-- What a row's last step leaves in the output block, at pixel (h, w): the channel sum of the row's image. -/
theorem out_apply (c : Dev nD) (t : Fin cfg0.N) (h7 : t.val % 8 = 7) (h w : Fin 512) :
    (outsAt0 m c t.val t.isLt).1 (ix4 (0 : Fin 1) (0 : Fin 1) h w) = chanSum (V m c main_arg0) (img t.val) h w :=
  (congrFun (out_last m c t h7) (ix4 (0 : Fin 1) (0 : Fin 1) h w)).trans (total_last m c t.val t.isLt h7 (h, w))

end Cert.KernelIdeal.Acc
end
-- ==== Proof.KernelArray.lean ====
/-
  The region's result array: the channel sums.

  The output window's block at step t is the one plane of image t / 8, and the pipeline writes a block back only after
  a row's last step (t mod 8 = 7), when the kernel has just stored that image's channel sums into it. The eight planes
  written back are the eight images, so together they fill the [8, 1, 512, 512] result array: it ends holding, at
  (b, 0, h, w), the sum over the 128 channels of the argument at (b, ·, h, w).
-/
import proofs.«127440_j78477642433377_1_alg».proof.Proof.KernelAcc
import Idealize.ShloMosaic.Lib.Pipeline.Value

noncomputable section
open Idealize.ShloMosaic Idealize.ShloMosaic.TcCoe Idealize.SL.Sem
open Idealize.ShloMosaic.ValueIdx
open Idealize.ShloMosaic.Pipeline (Dat)

namespace Cert.KernelIdeal.Arr
open Cert.KernelIdeal Cert.KernelIdeal.Gen Cert.KernelIdeal.Step Cert.KernelIdeal.Acc Cert.DiagPool

variable (m : (ℓ : Loc nD τ sig) → Buf (Elt Ideal) ℓ)

/-- The output window's block numbers at step t (decided over the 64 steps). -/
theorem idx_out : ∀ t : Fin cfg0.N, win0_1.index t (0 : Fin 4) = t.val / 8 % 8 ∧ win0_1.index t (1 : Fin 4) = 0
    ∧ win0_1.index t (2 : Fin 4) = 0 ∧ win0_1.index t (3 : Fin 4) = 0 :=
  (by decide +kernel : ∀ t : Fin grid0.N, _)

/-- What a row's last step writes back is its image's plane of the channel sums. -/
theorem flushed_eq (c : Dev nD) (t : Fin cfg0.N) (hf : (cfg0.win 1).flush t = true) :
    (dats m 0 c).flushed 1 t = ((cfg0.win 1).blk t).view.read (Elt Ideal) (chanPlane (V m c main_arg0)) := by
  have h7 : t.val % 8 = 7 := (flush0_1 t).mp hf
  obtain ⟨e0, e1, e2, e3⟩ := idx_out t
  show (cfg0.win 1).cut (grid0.coords t) ((dats m 0 c).after 1 t) = _
  rw [after0_1]
  funext (y : S1x1x512x512.Idx)
  show (outsAt0 m c t.val t.isLt).1 y = chanPlane (V m c main_arg0) (((cfg0.win 1).blk t).view.emb y)
  obtain ⟨a, b, h, w, rfl⟩ : ∃ (a : Fin 1) (b : Fin 1) (h w : Fin 512), y = ix4 a b h w := ⟨y 0, y 1, y 2, y 3, eq_ix4 y⟩
  obtain rfl : a = 0 := Subsingleton.elim _ _
  obtain rfl : b = 0 := Subsingleton.elim _ _
  have E : ((cfg0.win 1).blk t).view.emb (ix4 (0 : Fin 1) (0 : Fin 1) h w) = ix4 (img t.val) (0 : Fin 1) h w := by
    funext a; apply Fin.ext
    match a with
    | ⟨0, _⟩ => show win0_1.index t (0 : Fin 4) * 1 + 1 * 0 = t.val / 8 % 8; omega
    | ⟨1, _⟩ => show win0_1.index t (1 : Fin 4) * 1 + 1 * 0 = 0; omega
    | ⟨2, _⟩ => show win0_1.index t (2 : Fin 4) * 512 + 1 * h.val = h.val; omega
    | ⟨3, _⟩ => show win0_1.index t (3 : Fin 4) * 512 + 1 * w.val = w.val; omega
  rw [E, chanPlane_apply]
  exact out_apply m c t h7 h w

/-- An index of the result array is in step t's block iff each coordinate is in the block's range on its axis. -/
theorem mem_blk (t : Fin cfg0.N) (i : S8x1x512x512.Idx) :
    i ∈ ((cfg0.win 1).blk t).view.set ↔ ∀ a : Fin 4, win0_1.index t a * S1x1x512x512.size a ≤ (i a).val ∧ (i a).val < win0_1.index t a * S1x1x512x512.size a + S1x1x512x512.size a := by
  show i ∈ ((View.whole main_v0).slice (win0_1.rect t)).set ↔ _
  rw [View.set_slice_whole, Rect.mem_set_unit]
  exact Iff.rfl

/-- Every index of the result array lies in the block some row's last step writes back: image b's plane is step 8 b + 7's. -/
theorem cover (i : S8x1x512x512.Idx) :
    ∃ t : Fin cfg0.N, (cfg0.win 1).flush t = true ∧ i ∈ ((cfg0.win 1).blk t).view.set := by
  have hN : cfg0.N = 64 := N_0
  have h0 : (i 0).val < 8 := (i 0).isLt
  have h1 : (i 1).val < 1 := (i 1).isLt
  have h2 : (i 2).val < 512 := (i 2).isLt
  have h3 : (i 3).val < 512 := (i 3).isLt
  let t : Fin cfg0.N := ⟨8 * (i 0).val + 7, by rw [hN]; omega⟩
  have tv : t.val = 8 * (i 0).val + 7 := rfl
  obtain ⟨e0, e1, e2, e3⟩ := idx_out t
  refine ⟨t, (flush0_1 t).mpr (by rw [tv]; omega), ?_⟩
  rw [mem_blk]
  intro a
  match a with
  | ⟨0, _⟩ => show win0_1.index t (0 : Fin 4) * 1 ≤ (i 0).val ∧ (i 0).val < win0_1.index t (0 : Fin 4) * 1 + 1; rw [e0, tv]; omega
  | ⟨1, _⟩ => show win0_1.index t (1 : Fin 4) * 1 ≤ (i 1).val ∧ (i 1).val < win0_1.index t (1 : Fin 4) * 1 + 1; rw [e1]; omega
  | ⟨2, _⟩ => show win0_1.index t (2 : Fin 4) * 512 ≤ (i 2).val ∧ (i 2).val < win0_1.index t (2 : Fin 4) * 512 + 512; rw [e2]; omega
  | ⟨3, _⟩ => show win0_1.index t (3 : Fin 4) * 512 ≤ (i 3).val ∧ (i 3).val < win0_1.index t (3 : Fin 4) * 512 + 512; rw [e3]; omega

/-- So the region's result array ends holding the channel sums of the argument as the region found it. -/
theorem final (c : Dev nD) : (dats m 0 c).arrAt 1 cfg0.N = chanPlane (V m c main_arg0) :=
  (dats m 0 c).arrAt_eq_of_cover 1 (chanPlane (V m c main_arg0)) (flushed_eq m c) (cover)

end Cert.KernelIdeal.Arr
end
-- ==== Proof.LibScatterRows.lean ====
/-
  An accumulating scatter of the rows of an E × K matrix of updates into the rows of an N × K matrix, by an E × 1
  column of signed row numbers, read at an entry, over the extended reals. The node count N, the edge count E and
  the width K are arbitrary. The dimension record is
    update window axes [1], inserted window axes [0], scatter-to-operand map [0], index-vector axis 1.

  Where an update lands. The start of the window on operand axis 0 is the row number at `(e, 0)`, read signed and
  not clamped; on axis 1 it is 0. The window coordinate is 0 on axis 0 and the update's column on axis 1. Hence
  update `(e, k)` lands iff that row number lies in [0, N), and then at (that row, column `k`).

  The sum. Edge e goes to the row whose number the index column holds at e and is dropped when that number is not
  a row. So row n receives exactly the edges of `inEdges idx n`, and entry (n, j) of the result is the operand's
  entry plus the sum over those edges of the updates' column j.
-/
import Idealize.ShloMosaic.PureOps.Dims
import Idealize.ShloMosaic.PureOps.Ideal
import Idealize.ShloMosaic.Lib.ValueIdx

noncomputable section

namespace Cert.LibScatterRows
open Idealize.ShloMosaic
open Idealize.ShloMosaic.ValueIdx

variable {N E K : Nat}

/-- The operand: N rows of width K. -/
abbrev SN (N K : Nat) : Shape := ⟨2, ![N, K]⟩
/-- The column of E row numbers. -/
abbrev SI (E : Nat) : Shape := ⟨2, ![E, 1]⟩
/-- The updates: E rows of width K. -/
abbrev SU (E K : Nat) : Shape := ⟨2, ![E, K]⟩

/-- The record, over any proof of its well-formedness. -/
abbrev D2 (wf : ScatterDims.WF (SN N K) (SI E) (SU E K) [1] [0] [0] 1) : ScatterDims (SN N K) (SI E) (SU E K) :=
  ⟨[1], [0], [0], 1, wf⟩

/-! ## Where an update lands -/

/-- The scatter-indices index read for an update index `(e, k)`: row `e`, the one column. -/
theorem siIdx2 (wf : ScatterDims.WF (SN N K) (SI E) (SU E K) [1] [0] [0] 1) (e : Fin E) (k : Fin K) (c) :
    (D2 wf).siIdx (ix2 e k) c = ix2 e (0 : Fin 1) := by
  funext b
  match b with
  | ⟨0, _⟩ => exact Fin.ext rfl
  | ⟨1, _⟩ => exact Fin.ext (by simp [ScatterDims.siIdx])

/-- On operand axis 0 the window starts at the row number read signed at `(e, 0)`. -/
theorem start2_0 (wf : ScatterDims.WF (SN N K) (SI E) (SU E K) [1] [0] [0] 1) {w : Nat} (idx : IVec (SI E) w)
    (e : Fin E) (k : Fin K) :
    (D2 wf).start (ix2 e k) idx 0 = (idx (ix2 e (0 : Fin 1))).toInt := by
  unfold ScatterDims.start
  simp [siIdx2]

/-- Operand axis 1 is not in the scatter-to-operand map: the window starts at 0 there. -/
theorem start2_1 (wf : ScatterDims.WF (SN N K) (SI E) (SU E K) [1] [0] [0] 1) {w : Nat} (idx : IVec (SI E) w) (j) :
    (D2 wf).start j idx 1 = 0 := by
  unfold ScatterDims.start
  simp

/-- Operand axis 0 is an inserted window axis: the window coordinate is 0 there. -/
theorem window2_0 (wf : ScatterDims.WF (SN N K) (SI E) (SU E K) [1] [0] [0] 1) (j) :
    (D2 wf).window j 0 = 0 := by
  unfold ScatterDims.window
  simp [Shape.kept]

/-- Operand axis 1 is the only kept axis and takes the update's window axis 1. -/
theorem window2_1 (wf : ScatterDims.WF (SN N K) (SI E) (SU E K) [1] [0] [0] 1) (j) :
    (D2 wf).window j 1 = (j 1).val := rfl

/-- Update `(e, k)` lands on `(n, j)` iff the row number at `(e, 0)` is `n` and the columns agree. -/
theorem land2 (wf : ScatterDims.WF (SN N K) (SI E) (SU E K) [1] [0] [0] 1) {w : Nat} (idx : IVec (SI E) w)
    (e : Fin E) (k : Fin K) (n : Fin N) (j : Fin K) :
    (D2 wf).resultIdx? (ix2 e k) idx = some (ix2 n j) ↔
      (idx (ix2 e (0 : Fin 1))).toInt = (n.val : Int) ∧ k = j := by
  have hk := k.isLt
  have hj := j.isLt
  have hn := n.isLt
  unfold ScatterDims.resultIdx?
  split
  · rename_i h
    have h0 := h 0
    simp only [start2_0, window2_0] at h0
    change 0 ≤ (idx (ix2 e (0 : Fin 1))).toInt + ((0 : Nat) : Int) ∧
      (idx (ix2 e (0 : Fin 1))).toInt + ((0 : Nat) : Int) < ((N : Nat) : Int) at h0
    rw [Option.some.injEq, funext_iff, Fin.forall_fin_two]
    simp only [Fin.ext_iff, start2_0, start2_1, window2_0, window2_1]
    change ((idx (ix2 e (0 : Fin 1))).toInt + ((0 : Nat) : Int)).toNat = n.val ∧
      ((0 : Int) + ((k.val : Nat) : Int)).toNat = j.val ↔ _
    omega
  · rename_i h
    simp only [Fin.forall_fin_two, start2_0, start2_1, window2_0, window2_1] at h
    change ¬((0 ≤ (idx (ix2 e (0 : Fin 1))).toInt + ((0 : Nat) : Int) ∧
      (idx (ix2 e (0 : Fin 1))).toInt + ((0 : Nat) : Int) < ((N : Nat) : Int)) ∧
      0 ≤ (0 : Int) + ((k.val : Nat) : Int) ∧ (0 : Int) + ((k.val : Nat) : Int) < ((K : Nat) : Int)) at h
    constructor
    · intro hc; exact absurd hc (by simp)
    · rintro ⟨h1, _⟩; exact absurd (by omega) h

/-- The same for any record with these four fields. -/
theorem land2_of_eq (d : ScatterDims (SN N K) (SI E) (SU E K)) (h1 : d.updateWindowDims = [1])
    (h2 : d.insertedWindowDims = [0]) (h3 : d.scatterDimsToOperandDims = [0]) (h4 : d.indexVectorDim = 1)
    {w : Nat} (idx : IVec (SI E) w) (e : Fin E) (k : Fin K) (n : Fin N) (j : Fin K) :
    d.resultIdx? (ix2 e k) idx = some (ix2 n j) ↔
      (idx (ix2 e (0 : Fin 1))).toInt = (n.val : Int) ∧ k = j := by
  obtain ⟨uw, iw, sd, iv, wf⟩ := d
  simp only at h1 h2 h3 h4
  subst h1 h2 h3 h4
  exact land2 wf idx e k n j

/-! ## The sum -/

/-- The edges whose destination is node n: the index column, read signed at the edge, is n. -/
def inEdges {w : Nat} (idx : IVec (SI E) w) (n : Fin N) : Finset (Fin E) :=
  Finset.univ.filter fun e => (idx (ix2 e (0 : Fin 1))).toInt = (n.val : Int)

/-- The accumulating scatter at an operand index: the operand there plus the updates that land there. -/
theorem scatterAdd_eq {s si su : Shape} (d : ScatterDims s si su) {w : Nat} (x : s.Idx → EReal) (idx : IVec si w)
    (upd : su.Idx → EReal) (i : s.Idx) :
    Ideal.hostScatterAdd d x idx upd i =
      x i + ∑ u ∈ Finset.univ.filter (fun u : su.Idx => d.resultIdx? u idx = some i), upd u := rfl

/-- The host's accumulating scatter, read over the extended reals, is that sum. -/
theorem host_eq {s si su : Shape} {φ : FTy} (d : ScatterDims s si su) {w : Nat} (x : FVec Ideal s φ) (idx : IVec si w)
    (upd : FVec Ideal su φ) : Host.scatterAdd (F := Ideal) d x idx upd = Ideal.hostScatterAdd d x idx upd := rfl

/-- Summing over the edges sent to n is summing over all edges with the others zeroed. -/
theorem sum_inEdges {w : Nat} (idx : IVec (SI E) w) (n : Fin N) (f : Fin E → EReal) :
    ∑ e ∈ inEdges idx n, f e = ∑ e : Fin E, if (idx (ix2 e (0 : Fin 1))).toInt = (n.val : Int) then f e else 0 := by
  unfold inEdges
  rw [Finset.sum_filter]

/-- Rows of a matrix scattered and added: entry (n, j) gains column j of every update row sent to n. -/
theorem scatterAdd2_apply (d : ScatterDims (SN N K) (SI E) (SU E K)) (h1 : d.updateWindowDims = [1])
    (h2 : d.insertedWindowDims = [0]) (h3 : d.scatterDimsToOperandDims = [0]) (h4 : d.indexVectorDim = 1) {w : Nat}
    (x : (SN N K).Idx → EReal) (idx : IVec (SI E) w) (upd : (SU E K).Idx → EReal) (n : Fin N) (j : Fin K) :
    Ideal.hostScatterAdd d x idx upd (ix2 n j) = x (ix2 n j) + ∑ e ∈ inEdges idx n, upd (ix2 e j) := by
  rw [scatterAdd_eq, sum_inEdges]
  refine congrArg (x (ix2 n j) + ·) ?_
  rw [Finset.sum_filter, sum_idx2]
  refine Finset.sum_congr rfl fun e _ => ?_
  simp only [land2_of_eq d h1 h2 h3 h4]
  by_cases he : (idx (ix2 e (0 : Fin 1))).toInt = (n.val : Int)
  · simp only [he, true_and, if_true]
    rw [Finset.sum_ite_eq' Finset.univ j]
    simp
  · simp only [he, false_and, if_false, Finset.sum_const_zero]

end Cert.LibScatterRows

end
-- ==== Proof.KernelSums.lean ====
import proofs.«127440_j78477642433377_1_alg».proof.Proof.Gen.KernelIdeal
import proofs.«127440_j78477642433377_1_alg».proof.Proof.LibScatterRows
import Idealize.ShloMosaic.Lib.ValueIdx
import Idealize.ShloMosaic.Lib.Pipeline.Value
import Idealize.ShloMosaic.PureOps.Ideal.Laws

/-! What the host operations after the channel-sum region compute from its result y, an 8 x 1 x 512 x 512 array,
as the composed term `tail (sums y)`, and the segment sums read at one entry over the extended reals.

* `seg` is the column of segment numbers of the 512 x 512 pixels (pixel (r, c) belongs to segment c - r + 511);
* `sums y` reads y as 8 rows of 262144 pixels, turns it so that each pixel is a row of 8 values, and adds the
  rows into the rows of a zero 1023 x 8 matrix, pixel p into row `seg p`;
* `tail s` picks 513 of the 1023 rows, divides each by its constant, and lays the result out as 8 x 1 x 513.

Entry (d, b) of `sums y` is zero plus the sum, over the pixels e whose segment number is d, of y at
(b, 0, e / 512, e % 512). Every array on the way is read at ONE index of the array before it: row d of the scattered
matrix is the zero row plus the sum of the update rows whose row number is d; the turned matrix at (e, b) is the
matrix at (b, e); image b flattened, at pixel e, is the image at (e / 512, e % 512), both at row-major position
262144 b + e; and dropping the unit axis keeps the row-major position. The column of row numbers is never
evaluated: every step holds for any such column. -/

noncomputable section

namespace Cert.KernelIdeal.TailValue

open Cert.KernelIdeal Cert.KernelIdeal.Gen Idealize.ShloMosaic Idealize.ShloMosaic.ValueIdx

variable {F : FTy → Type} [FloatOps F]

/-- The column of segment numbers: pixel p of the 512 x 512 plane, at row p / 512 and column p % 512, carries
    (column - row + 512) - 1, a number between 0 and 1022; pixels on one diagonal share a segment. -/
def seg : IVec S262144x1 32 :=
  broadcastInDim S262144x1 ![0] bcast_S262144_S262144x1_0
    (shapeCast S262144
      (subi
        (addi
          (subi
            (broadcastInDim S512x512 ![0, 1] bcast_S1x512_S512x512_0_1
              (broadcastInDim S1x512 ![1] bcast_S512_S1x512_1 (iotaInDim S512 32 0)))
            (broadcastInDim S512x512 ![0, 1] bcast_S512x1_S512x512_0_1
              (broadcastInDim S512x1 ![0] bcast_S512_S512x1_0 (iotaInDim S512 32 0))))
          (broadcastInDim S512x512 ![] bcast_S_S512x512 (constantI S_ 32 512#32)))
        (broadcastInDim S512x512 ![] bcast_S_S512x512 (constantI S_ 32 1#32)))
      shapeCasts_S512x512_S262144)

/-- The segment sums of the channel-summed images: the unit axis is dropped, each image is flattened to 262144
    pixels, the 8 x 262144 matrix is turned, and its rows are added into a zero 1023 x 8 matrix, pixel p into row
    `seg p`. -/
def sums (Y : FVec F S8x1x512x512 .f32) : FVec F S1023x8 .f32 :=
  Host.scatterAdd (F := F) scatter_S1023x8_S262144x1_S262144x8_1_0_0_1
    (broadcastInDim S1023x8 ![] bcast_S_S1023x8 (constant (F := F) S_ .f32 0x00000000#32))
    seg
    (transpose S262144x8 [1, 0]
      (shapeCast S8x262144 (shapeCast S8x512x512 Y shapeCasts_S8x1x512x512_S8x512x512) shapeCasts_S8x512x512_S8x262144)
      transposes_S8x262144_S262144x8_1_0)

/-- What is done to the segment sums: 513 rows are picked by a table of row numbers (a negative number counts from
    the end: 1023 is added to it), each picked row is divided by its entry of a table of 513 constants, and the
    513 x 8 result is turned and laid out as 8 x 1 x 513. -/
def tail (s : FVec F S1023x8 .f32) : FVec F S8x1x513 .f32 :=
  broadcastInDim S8x1x513 ![0, 2] bcast_S8x513_S8x1x513_0_2
    (transpose S8x513 [1, 0]
      (Host.divf (F := F)
        (Host.gather gather_S1023x8_S513x1_S513x8_1_0_n_n_0_1_18 s
          (broadcastInDim S513x1 ![0] bcast_S513_S513x1_0
            (select
              (cmpi CmpIPredicate.slt (fun i => lit0 (S513.rowMajor i) : IVec S513 32)
                (broadcastInDim S513 ![] bcast_S_S513 (constantI S_ 32 0#32)))
              (addi (fun i => lit0 (S513.rowMajor i) : IVec S513 32)
                (broadcastInDim S513 ![] bcast_S_S513 (constantI S_ 32 1023#32)))
              (fun i => lit0 (S513.rowMajor i) : IVec S513 32))))
        (broadcastInDim S513x8 ![0, 1] bcast_S513x1_S513x8_0_1
          (broadcastInDim S513x1 ![0] bcast_S513_S513x1_0
            (fun i => FloatOps.ofBits (F := F) .f32 (lit1 (S513.rowMajor i)) : FVec F S513 .f32))))
      transposes_S513x8_S8x513_1_0)

/-- Pixel e of the 512 x 512 plane: row e / 512, column e % 512. -/
theorem row_lt (e : Fin 262144) : e.val / 512 < 512 := by have := e.isLt; omega
theorem col_lt (e : Fin 262144) : e.val % 512 < 512 := by omega

/-- Dropping the unit axis: the 8 x 512 x 512 array at (b, h, w) is the 8 x 1 x 512 x 512 array at (b, 0, h, w). -/
theorem unit_apply (Y : S8x1x512x512.Idx → EReal) (b : Fin 8) (h w : Fin 512) :
    shapeCast S8x512x512 Y shapeCasts_S8x1x512x512_S8x512x512 (ix3 b h w) = Y (ix4 b (0 : Fin 1) h w) := by
  refine shapeCast_apply Y _ (ix3 b h w) (ix4 b (0 : Fin 1) h w) ?_
  rw [Shape.rowMajor_val_four, Shape.rowMajor_val_three]
  show ((b.val * 1 + 0) * 512 + h.val) * 512 + w.val = (b.val * 512 + h.val) * 512 + w.val
  omega

/-- Image b flattened, at pixel e, is the image at (e / 512, e % 512). -/
theorem flat_apply (P : S8x512x512.Idx → EReal) (b : Fin 8) (e : Fin 262144) :
    shapeCast S8x262144 P shapeCasts_S8x512x512_S8x262144 (ix2 b e)
      = P (ix3 b ⟨e.val / 512, row_lt e⟩ ⟨e.val % 512, col_lt e⟩) := by
  refine shapeCast_apply P _ (ix2 b e) (ix3 b ⟨e.val / 512, row_lt e⟩ ⟨e.val % 512, col_lt e⟩) ?_
  rw [Shape.rowMajor_val_three, Shape.rowMajor_val_two]
  show (b.val * 512 + e.val / 512) * 512 + e.val % 512 = b.val * 262144 + e.val
  omega

/-- The turned matrix at (e, b) is the matrix at (b, e). -/
theorem turned_apply (R : S8x262144.Idx → EReal) (e : Fin 262144) (b : Fin 8) :
    transpose S262144x8 [1, 0] R transposes_S8x262144_S262144x8_1_0 (ix2 e b) = R (ix2 b e) := by
  refine transpose_apply _ R _ (ix2 e b) (ix2 b e) ?_
  intro a
  match a with
  | ⟨0, _⟩ => rfl
  | ⟨1, _⟩ => rfl

/-- Row d of the scattered matrix at column b: zero plus the updates' column b over the rows sent to d, for any
    column of row numbers. -/
theorem scattered_apply (idx : IVec S262144x1 32) (U : S262144x8.Idx → EReal) (d : Fin 1023) (b : Fin 8) :
    Host.scatterAdd (F := Ideal) scatter_S1023x8_S262144x1_S262144x8_1_0_0_1
        (broadcastInDim S1023x8 ![] bcast_S_S1023x8 (constant (F := Ideal) S_ .f32 0x00000000#32)) idx U (ix2 d b)
      = 0 + ∑ e ∈ Cert.LibScatterRows.inEdges (N := 1023) idx d, U (ix2 e b) := by
  rw [Cert.LibScatterRows.host_eq, Cert.LibScatterRows.scatterAdd2_apply _ rfl rfl rfl rfl]
  refine congrArg (· + _) ?_
  exact Ideal.ofBits_zero_f32

/-- Entry (d, b) of the segment sums: zero plus, over the pixels of segment d, the channel-summed image b at
    (pixel row, pixel column). -/
theorem sums_apply (Y : S8x1x512x512.Idx → EReal) (d : Fin 1023) (b : Fin 8) :
    sums (F := Ideal) Y (ix2 d b)
      = 0 + ∑ e ∈ Cert.LibScatterRows.inEdges (N := 1023) seg d,
          Y (ix4 b (0 : Fin 1) ⟨e.val / 512, row_lt e⟩ ⟨e.val % 512, col_lt e⟩) := by
  unfold sums
  rw [scattered_apply]
  refine congrArg (0 + ·) (Finset.sum_congr rfl fun e _ => ?_)
  rw [turned_apply, flat_apply, unit_apply]

end Cert.KernelIdeal.TailValue

end
-- ==== Proof.KernelRun.lean ====
/-
  The kernel program's run, read: its result is the shared tail of the per-diagonal sums of the channel sums.

  The program is the pipelined region followed by 35 host operations. The region leaves the channel sums of the
  argument in its result array (every other buffer as the two operations before the region left it: the two constant
  tables); the host operations reshape and transpose that array, add its pixels up diagonal by diagonal, pick the 513
  central diagonals, divide by the constant table and lay the result out as [8, 1, 513]. Composing them, operation by
  operation, gives the program's result as one term of the argument.
-/
import proofs.«127440_j78477642433377_1_alg».proof.Proof.KernelArray
import proofs.«127440_j78477642433377_1_alg».proof.Proof.KernelSums
import Idealize.ShloMosaic.Lib.StableHlo.Run

noncomputable section
open Idealize.ShloMosaic Idealize.ShloMosaic.TcCoe Idealize.SL.Sem
open Idealize.ShloMosaic.ValueIdx
open Idealize.ShloMosaic.Pipeline (Dat)

namespace Cert.KernelIdeal.Run
open Cert.KernelIdeal Cert.KernelIdeal.Gen Cert.KernelIdeal.Arr Cert.DiagPool

variable (m : (ℓ : Loc nD τ sig) → Buf (Elt Ideal) ℓ)

/-- The buffers as the operations after the region find them: the region's arrays at their final contents, every other
    buffer as the operations before the region left it. -/
abbrev atExit (c : Dev nD) : Valuation τ sig (Elt Ideal) :=
  Pipeline.withArrays spec0 c (V0 m c) fun w => (dats m 0 c).arrAt w cfg0.N

/-- What a buffer holds after one stretch of host operations following the region: those operations run from the
    buffers as the region left them. -/
theorem tail_single (ops : List (HloOp τ sig (Elt Ideal))) (c : Dev nD) (b : Ref sig .tc) :
    Pipeline.afterTail₀ cfgs (dats m) 0 (V0 m) [ops] c b = StableHlo.after ops (atExit m c) (Proc.devRef .tc b) := by
  unfold Pipeline.afterTail₀
  rw [List.flatten_cons, List.flatten_nil, List.append_nil]

/-- The region's result array, as the later operations find it: the channel sums. -/
theorem exit_result (c : Dev nD) : atExit m c (Proc.devRef .tc main_v0) = chanPlane (V m c main_arg0) :=
  (Pipeline.withArrays_arr spec0 launch0.win.arr_inj c _ _ 1).trans (final m c)

/-- The table of diagonal numbers is no array of the region: it is as the operation before the region wrote it. -/
theorem exit_index (c : Dev nD) :
    atExit m c (Proc.devRef .tc main_c) = (fun i => lit0 (S513.rowMajor i) : IVec S513 32) := by
  refine (Pipeline.withArrays_of_ne spec0 c _ _ main_c (fun w => by fin_cases w <;> decide)).trans ?_
  show StableHlo.after (List.flatten [hostOps0]) (fun b => m (c, b)) (Proc.devRef .tc main_c) = _
  simp only [hostOps0, List.flatten_cons, List.flatten_nil, List.append_nil, List.cons_append, List.nil_append]
  after_results
  rfl

/-- Likewise the table of divisors. -/
theorem exit_divisor (c : Dev nD) :
    atExit m c (Proc.devRef .tc main_cst)
      = (fun i => FloatOps.ofBits (F := Ideal) .f32 (lit1 (S513.rowMajor i)) : FVec Ideal S513 .f32) := by
  refine (Pipeline.withArrays_of_ne spec0 c _ _ main_cst (fun w => by fin_cases w <;> decide)).trans ?_
  show StableHlo.after (List.flatten [hostOps0]) (fun b => m (c, b)) (Proc.devRef .tc main_cst) = _
  simp only [hostOps0, List.flatten_cons, List.flatten_nil, List.append_nil, List.cons_append, List.nil_append]
  after_results
  rfl

/-- The program's result buffer after the 35 operations: the tail of the per-diagonal sums of the channel sums. -/
theorem tail_eq (c : Dev nD) :
    Pipeline.afterTail₀ cfgs (dats m) 0 (V0 m) [hostOps1] c main_v30
      = TailValue.tail (F := Ideal) (TailValue.sums (F := Ideal) (chanPlane (V m c main_arg0))) := by
  refine (tail_single m hostOps1 c main_v30).trans ?_
  have hY := exit_result m c
  have hC := exit_index m c
  have hD := exit_divisor m c
  generalize atExit m c = W at hY hC hD ⊢
  after_results_simp
  rw [hY, hC, hD]
  rfl

/-- Every weakly fair execution of the kernel program terminates with its result at that term of the argument and the
    argument unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v30)
          = TailValue.tail (F := Ideal) (TailValue.sums (F := Ideal) (chanPlane (m ((c.tc : Thread nD τ).loc main_arg0))))
      ∧ r.2.mem ((c.tc : Thread nD τ).loc main_arg0) = m ((c.tc : Thread nD τ).loc main_arg0) :=
  (θ_run defs _ _).mono (fun _ h c =>
      ⟨((h c).2 main_v30 (Pipeline.mem_restRefs_of main_v30 (by decide) (by decide))).trans
          ((tail_eq m c).trans (by rw [V_main_arg0])),
        ((h c).1 0).trans (((dats m 0 c).arrAt_in 0 rfl _).trans ((A_eq m c 0).trans (V_main_arg0 m c)))⟩)
    (run_main m ρ)

end Cert.KernelIdeal.Run
end
-- ==== Proof.RefRun.lean ====
import proofs.«127440_j78477642433377_1_alg».proof.Proof.Gen.ReferenceIdeal
import Idealize.ShloMosaic.Lib.StableHlo.Run

/-! The reference program's @main read as a list of its 39 host operations, and what every execution of it
leaves in the result buffer: the composed term `tail (sums x)` of the argument `x`, where

* `seg` is the column of segment numbers of the 512 x 512 pixels (pixel (r, c) belongs to segment c - r + 511),
* `sums x` adds, for every segment and every batch entry, the values of `x` over the segment's pixels and over
  the 128 channels (a scatter-add of the 262144 pixel rows into 1023 segment rows, then a sum over channels),
* `tail s` picks 513 of the 1023 segment rows, divides each by its constant, and lays the result out
  as batch x 1 x 513. -/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 39 operations, in order. -/
abbrev ops : List (HloOp τ sig (Elt F)) :=
  [ nullary main_c (fun i => lit0 (S513.rowMajor i)),
    nullary main_cst (fun i => FloatOps.ofBits .f32 (lit1 (S513.rowMajor i))),
    nullary main_v0 (iotaInDim S512 32 0),
    unary main_v0 main_v1 (broadcastInDim S512x1 ![0] bcast_S512_S512x1_0 : (⟨S512, .i32⟩ : BufTy).Contents (Elt F) → (⟨S512x1, .i32⟩ : BufTy).Contents (Elt F)),
    nullary main_v2 (iotaInDim S512 32 0),
    unary main_v2 main_v3 (broadcastInDim S1x512 ![1] bcast_S512_S1x512_1 : (⟨S512, .i32⟩ : BufTy).Contents (Elt F) → (⟨S1x512, .i32⟩ : BufTy).Contents (Elt F)),
    unary main_v3 main_v4 (broadcastInDim S512x512 ![0, 1] bcast_S1x512_S512x512_0_1 : (⟨S1x512, .i32⟩ : BufTy).Contents (Elt F) → (⟨S512x512, .i32⟩ : BufTy).Contents (Elt F)),
    unary main_v1 main_v5 (broadcastInDim S512x512 ![0, 1] bcast_S512x1_S512x512_0_1 : (⟨S512x1, .i32⟩ : BufTy).Contents (Elt F) → (⟨S512x512, .i32⟩ : BufTy).Contents (Elt F)),
    binary main_v4 main_v5 main_v6 (subi : (⟨S512x512, .i32⟩ : BufTy).Contents (Elt F) → (⟨S512x512, .i32⟩ : BufTy).Contents (Elt F) → (⟨S512x512, .i32⟩ : BufTy).Contents (Elt F)),
    nullary main_c_0 (constantI S_ 32 512#32),
    unary main_c_0 main_v7 (broadcastInDim S512x512 ![] bcast_S_S512x512 : (⟨S_, .i32⟩ : BufTy).Contents (Elt F) → (⟨S512x512, .i32⟩ : BufTy).Contents (Elt F)),
    binary main_v6 main_v7 main_v8 (addi : (⟨S512x512, .i32⟩ : BufTy).Contents (Elt F) → (⟨S512x512, .i32⟩ : BufTy).Contents (Elt F) → (⟨S512x512, .i32⟩ : BufTy).Contents (Elt F)),
    nullary main_c_1 (constantI S_ 32 1#32),
    unary main_c_1 main_v9 (broadcastInDim S512x512 ![] bcast_S_S512x512 : (⟨S_, .i32⟩ : BufTy).Contents (Elt F) → (⟨S512x512, .i32⟩ : BufTy).Contents (Elt F)),
    binary main_v8 main_v9 main_v10 (subi : (⟨S512x512, .i32⟩ : BufTy).Contents (Elt F) → (⟨S512x512, .i32⟩ : BufTy).Contents (Elt F) → (⟨S512x512, .i32⟩ : BufTy).Contents (Elt F)),
    reshape main_v10 main_v11 rfl shapeCasts_S512x512_S262144,
    reshape main_arg0 main_v12 rfl shapeCasts_S8x128x512x512_S1024x262144,
    unary main_v12 main_v13 ((transpose S262144x1024 [1, 0] · transposes_S1024x262144_S262144x1024_1_0) : (⟨S1024x262144, .f32⟩ : BufTy).Contents (Elt F) → (⟨S262144x1024, .f32⟩ : BufTy).Contents (Elt F)),
    nullary main_cst_2 (constant S_ .f32 0x00000000#32),
    unary main_cst_2 main_v14 (broadcastInDim S1023x1024 ![] bcast_S_S1023x1024 : (⟨S_, .f32⟩ : BufTy).Contents (Elt F) → (⟨S1023x1024, .f32⟩ : BufTy).Contents (Elt F)),
    unary main_v11 main_v15 (broadcastInDim S262144x1 ![0] bcast_S262144_S262144x1_0 : (⟨S262144, .i32⟩ : BufTy).Contents (Elt F) → (⟨S262144x1, .i32⟩ : BufTy).Contents (Elt F)),
    ternary main_v14 main_v15 main_v13 main_v16 ((fun x i u => Host.scatterAdd scatter_S1023x1024_S262144x1_S262144x1024_1_0_0_1 x i u) : (⟨S1023x1024, .f32⟩ : BufTy).Contents (Elt F) → (⟨S262144x1, .i32⟩ : BufTy).Contents (Elt F) → (⟨S262144x1024, .f32⟩ : BufTy).Contents (Elt F) → (⟨S1023x1024, .f32⟩ : BufTy).Contents (Elt F)),
    reshape main_v16 main_v17 rfl shapeCasts_S1023x1024_S1023x8x128,
    nullary main_cst_3 (constant S_ .f32 0x00000000#32),
    binary main_v17 main_cst_3 main_v18 ((fun x v => Host.reduceAdd x v reducesTo_S1023x8x128_S1023x8_d2 h_S_) : (⟨S1023x8x128, .f32⟩ : BufTy).Contents (Elt F) → (⟨S_, .f32⟩ : BufTy).Contents (Elt F) → (⟨S1023x8, .f32⟩ : BufTy).Contents (Elt F)),
    unary main_cst main_v19 (broadcastInDim S513x1 ![0] bcast_S513_S513x1_0 : (⟨S513, .f32⟩ : BufTy).Contents (Elt F) → (⟨S513x1, .f32⟩ : BufTy).Contents (Elt F)),
    nullary main_c_4 (constantI S_ 32 0#32),
    unary main_c_4 main_v20 (broadcastInDim S513 ![] bcast_S_S513 : (⟨S_, .i32⟩ : BufTy).Contents (Elt F) → (⟨S513, .i32⟩ : BufTy).Contents (Elt F)),
    binary main_c main_v20 main_v21 (cmpi .slt : (⟨S513, .i32⟩ : BufTy).Contents (Elt F) → (⟨S513, .i32⟩ : BufTy).Contents (Elt F) → (⟨S513, .i1⟩ : BufTy).Contents (Elt F)),
    nullary main_c_5 (constantI S_ 32 1023#32),
    unary main_c_5 main_v22 (broadcastInDim S513 ![] bcast_S_S513 : (⟨S_, .i32⟩ : BufTy).Contents (Elt F) → (⟨S513, .i32⟩ : BufTy).Contents (Elt F)),
    binary main_c main_v22 main_v23 (addi : (⟨S513, .i32⟩ : BufTy).Contents (Elt F) → (⟨S513, .i32⟩ : BufTy).Contents (Elt F) → (⟨S513, .i32⟩ : BufTy).Contents (Elt F)),
    ternary main_v21 main_v23 main_c main_v24 (select : (⟨S513, .i1⟩ : BufTy).Contents (Elt F) → (⟨S513, .i32⟩ : BufTy).Contents (Elt F) → (⟨S513, .i32⟩ : BufTy).Contents (Elt F) → (⟨S513, .i32⟩ : BufTy).Contents (Elt F)),
    unary main_v24 main_v25 (broadcastInDim S513x1 ![0] bcast_S513_S513x1_0 : (⟨S513, .i32⟩ : BufTy).Contents (Elt F) → (⟨S513x1, .i32⟩ : BufTy).Contents (Elt F)),
    binary main_v18 main_v25 main_v26 ((fun x i => Host.gather gather_S1023x8_S513x1_S513x8_1_0_n_n_0_1_18 x i) : (⟨S1023x8, .f32⟩ : BufTy).Contents (Elt F) → (⟨S513x1, .i32⟩ : BufTy).Contents (Elt F) → (⟨S513x8, .f32⟩ : BufTy).Contents (Elt F)),
    unary main_v19 main_v27 (broadcastInDim S513x8 ![0, 1] bcast_S513x1_S513x8_0_1 : (⟨S513x1, .f32⟩ : BufTy).Contents (Elt F) → (⟨S513x8, .f32⟩ : BufTy).Contents (Elt F)),
    binary main_v26 main_v27 main_v28 (Host.divf : (⟨S513x8, .f32⟩ : BufTy).Contents (Elt F) → (⟨S513x8, .f32⟩ : BufTy).Contents (Elt F) → (⟨S513x8, .f32⟩ : BufTy).Contents (Elt F)),
    unary main_v28 main_v29 ((transpose S8x513 [1, 0] · transposes_S513x8_S8x513_1_0) : (⟨S513x8, .f32⟩ : BufTy).Contents (Elt F) → (⟨S8x513, .f32⟩ : BufTy).Contents (Elt F)),
    unary main_v29 main_v30 (broadcastInDim S8x1x513 ![0, 2] bcast_S8x513_S8x1x513_0_2 : (⟨S8x513, .f32⟩ : BufTy).Contents (Elt F) → (⟨S8x1x513, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., unary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., reshape_bufs_sub .., reshape_bufs_sub .., unary_bufs_sub .., nullary_bufs_sub .., unary_bufs_sub .., unary_bufs_sub .., ternary_bufs_sub .., reshape_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., unary_bufs_sub ..⟩

/-- The column of segment numbers: pixel p of the 512 x 512 plane, at row p / 512 and column p % 512, carries
    (column - row + 512) - 1, a number between 0 and 1022; pixels on one diagonal share a segment. -/
def seg : IVec S262144x1 32 :=
  broadcastInDim S262144x1 ![0] bcast_S262144_S262144x1_0
    (shapeCast S262144
      (subi
        (addi
          (subi
            (broadcastInDim S512x512 ![0, 1] bcast_S1x512_S512x512_0_1
              (broadcastInDim S1x512 ![1] bcast_S512_S1x512_1 (iotaInDim S512 32 0)))
            (broadcastInDim S512x512 ![0, 1] bcast_S512x1_S512x512_0_1
              (broadcastInDim S512x1 ![0] bcast_S512_S512x1_0 (iotaInDim S512 32 0))))
          (broadcastInDim S512x512 ![] bcast_S_S512x512 (constantI S_ 32 512#32)))
        (broadcastInDim S512x512 ![] bcast_S_S512x512 (constantI S_ 32 1#32)))
      shapeCasts_S512x512_S262144)

/-- The segment sums: the argument is read as 1024 planes of 262144 pixels and turned so that each pixel is a row of
    1024 values; the rows are added into the rows of a zero 1023 x 1024 matrix, pixel p into row `seg p`; the
    1024 columns are then read as 8 x 128 and the 128 channels are added up from zero. -/
def sums (X : FVec F S8x128x512x512 .f32) : FVec F S1023x8 .f32 :=
  Host.reduceAdd (F := F)
    (shapeCast S1023x8x128
      (Host.scatterAdd (F := F) scatter_S1023x1024_S262144x1_S262144x1024_1_0_0_1
        (broadcastInDim S1023x1024 ![] bcast_S_S1023x1024 (constant (F := F) S_ .f32 0x00000000#32))
        seg
        (transpose S262144x1024 [1, 0]
          (shapeCast S1024x262144 X shapeCasts_S8x128x512x512_S1024x262144)
          transposes_S1024x262144_S262144x1024_1_0))
      shapeCasts_S1023x1024_S1023x8x128)
    (constant (F := F) S_ .f32 0x00000000#32) reducesTo_S1023x8x128_S1023x8_d2 h_S_

/-- What is done to the segment sums: 513 rows are picked by a table of row numbers (a negative number counts from
    the end: 1023 is added to it), each picked row is divided by its entry of a table of 513 constants, and the
    513 x 8 result is turned and laid out as 8 x 1 x 513. -/
def tail (s : FVec F S1023x8 .f32) : FVec F S8x1x513 .f32 :=
  broadcastInDim S8x1x513 ![0, 2] bcast_S8x513_S8x1x513_0_2
    (transpose S8x513 [1, 0]
      (Host.divf (F := F)
        (Host.gather gather_S1023x8_S513x1_S513x8_1_0_n_n_0_1_18 s
          (broadcastInDim S513x1 ![0] bcast_S513_S513x1_0
            (select
              (cmpi CmpIPredicate.slt (fun i => lit0 (S513.rowMajor i) : IVec S513 32)
                (broadcastInDim S513 ![] bcast_S_S513 (constantI S_ 32 0#32)))
              (addi (fun i => lit0 (S513.rowMajor i) : IVec S513 32)
                (broadcastInDim S513 ![] bcast_S_S513 (constantI S_ 32 1023#32)))
              (fun i => lit0 (S513.rowMajor i) : IVec S513 32))))
        (broadcastInDim S513x8 ![0, 1] bcast_S513x1_S513x8_0_1
          (broadcastInDim S513x1 ![0] bcast_S513_S513x1_0
            (fun i => FloatOps.ofBits (F := F) .f32 (lit1 (S513.rowMajor i)) : FVec F S513 .f32))))
      transposes_S513x8_S8x513_1_0)

/-- On the one device, for any float values, from any memory with zero counters: every weakly fair execution of
    @main terminates with the result buffer at `tail (sums x)` of the argument's launch contents `x`, and the
    argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30) = tail (sums (m ((c.tc : Thread nD τ).loc main_arg0)))
      ∧ r.2.mem ((c.tc : Thread nD τ).loc main_arg0) = m ((c.tc : Thread nD τ).loc main_arg0) :=
  (θ_run defs _ _).mono (fun _ h c => ⟨(h c main_v30).trans (by after_results_simp; rfl),
      (h c main_arg0).trans (by after_results_simp)⟩)
    (run_seq scopedRefs_eq scopedSems_eq defs main (fun _ => ops) main_eq (fun _ => ops_sub) m ρ)

end Cert.ReferenceIdeal.RefValue

end
-- ==== Proof.RefSums.lean ====
import proofs.«127440_j78477642433377_1_alg».proof.Proof.RefRun
import proofs.«127440_j78477642433377_1_alg».proof.Proof.LibScatterRows
import Idealize.ShloMosaic.Lib.ValueIdx
import Idealize.ShloMosaic.Lib.Pipeline.Value
import Idealize.ShloMosaic.PureOps.Ideal.Laws

/-! The reference's segment sums read at one entry, over the extended reals.

Entry (d, b) of `sums x` is the sum over the 128 channels ch of the sum, over the pixels e whose segment number
is d, of x at (batch b, channel ch, row e / 512, column e % 512); each of the two sums starts from zero.

Every array on the way is read at ONE index of the array before it:
* the sum over the last axis of a 1023 x 8 x 128 array at (d, b) is zero plus the sum over ch of the entry (d, b, ch);
* a 1023 x 1024 matrix read as 1023 x 8 x 128 has, at (d, b, ch), its entry (d, 128 b + ch): both sit at
  row-major position 1024 d + 128 b + ch;
* row d of the scattered matrix is the zero row plus the sum of the update rows whose row number is d;
* the turned matrix at (e, k) is the matrix of planes at (k, e);
* plane 128 b + ch of the argument, at pixel e, is the argument at (b, ch, e / 512, e % 512): both sit at
  row-major position 262144 (128 b + ch) + e.
The column of row numbers is never evaluated: every step holds for any such column. -/

noncomputable section

namespace Cert.ReferenceIdeal.RefValue

open Cert.ReferenceIdeal Cert.ReferenceIdeal.Gen Idealize.ShloMosaic Idealize.ShloMosaic.ValueIdx

/-- Pixel e of the 512 x 512 plane: row e / 512, column e % 512. -/
theorem row_lt (e : Fin 262144) : e.val / 512 < 512 := by have := e.isLt; omega
theorem col_lt (e : Fin 262144) : e.val % 512 < 512 := by omega

/-- Plane k = 128 b + ch of the argument at pixel e is the argument at (b, ch, e / 512, e % 512). -/
theorem planes_apply (X : S8x128x512x512.Idx → EReal) (b : Fin 8) (ch : Fin 128) (e : Fin 262144)
    (k : Fin 1024) (hk : k.val = 128 * b.val + ch.val) :
    shapeCast S1024x262144 X shapeCasts_S8x128x512x512_S1024x262144 (ix2 k e)
      = X (ix4 b ch ⟨e.val / 512, row_lt e⟩ ⟨e.val % 512, col_lt e⟩) := by
  refine shapeCast_apply X _ (ix2 k e) (ix4 b ch ⟨e.val / 512, row_lt e⟩ ⟨e.val % 512, col_lt e⟩) ?_
  rw [Shape.rowMajor_val_four, Shape.rowMajor_val_two]
  show ((b.val * 128 + ch.val) * 512 + e.val / 512) * 512 + e.val % 512 = k.val * 262144 + e.val
  omega

/-- The turned matrix at (e, k) is the matrix at (k, e). -/
theorem turned_apply (R : S1024x262144.Idx → EReal) (e : Fin 262144) (k : Fin 1024) :
    transpose S262144x1024 [1, 0] R transposes_S1024x262144_S262144x1024_1_0 (ix2 e k) = R (ix2 k e) := by
  refine transpose_apply _ R _ (ix2 e k) (ix2 k e) ?_
  intro a
  match a with
  | ⟨0, _⟩ => rfl
  | ⟨1, _⟩ => rfl

/-- Row d of the scattered matrix at column k: zero plus the updates' column k over the rows sent to d, for any
    column of row numbers. -/
theorem scattered_apply (idx : IVec S262144x1 32) (U : S262144x1024.Idx → EReal) (d : Fin 1023) (k : Fin 1024) :
    Host.scatterAdd (F := Ideal) scatter_S1023x1024_S262144x1_S262144x1024_1_0_0_1
        (broadcastInDim S1023x1024 ![] bcast_S_S1023x1024 (constant (F := Ideal) S_ .f32 0x00000000#32)) idx U (ix2 d k)
      = 0 + ∑ e ∈ Cert.LibScatterRows.inEdges (N := 1023) idx d, U (ix2 e k) := by
  rw [Cert.LibScatterRows.host_eq, Cert.LibScatterRows.scatterAdd2_apply _ rfl rfl rfl rfl]
  refine congrArg (· + _) ?_
  exact Ideal.ofBits_zero_f32

/-- A 1023 x 1024 matrix read as 1023 x 8 x 128: entry (d, b, ch) is entry (d, 128 b + ch). -/
theorem cols_apply (Y : S1023x1024.Idx → EReal) (d : Fin 1023) (b : Fin 8) (ch : Fin 128)
    (k : Fin 1024) (hk : k.val = 128 * b.val + ch.val) :
    shapeCast S1023x8x128 Y shapeCasts_S1023x1024_S1023x8x128 (ix3 d b ch) = Y (ix2 d k) := by
  refine shapeCast_apply Y _ (ix3 d b ch) (ix2 d k) ?_
  rw [Shape.rowMajor_val_three, Shape.rowMajor_val_two]
  show d.val * 1024 + k.val = (d.val * 8 + b.val) * 128 + ch.val
  omega

/-- The sum over the channels, from zero, at (d, b). -/
theorem reduce_apply (A : S1023x8x128.Idx → EReal) (d : Fin 1023) (b : Fin 8) :
    Host.reduceAdd (F := Ideal) A (constant (F := Ideal) S_ .f32 0x00000000#32) reducesTo_S1023x8x128_S1023x8_d2 h_S_ (ix2 d b)
      = 0 + ∑ ch : Fin 128, A (ix3 d b ch) := by
  have h : S1023x8x128.Reduces [2] S1023x8 := by decide
  show Ideal.hostReduceAdd reducesTo_S1023x8x128_S1023x8_d2 A (Ideal.ofBits .f32 0x00000000#32) (ix2 d b) = _
  rw [Ideal.hostReduceAdd_single _ h, Ideal.ofBits_zero_f32]
  refine congrArg (0 + ·) (Finset.sum_congr rfl fun ch _ => congrArg A ?_)
  funext c
  match c with
  | ⟨0, _⟩ => exact Fin.ext rfl
  | ⟨1, _⟩ => exact Fin.ext rfl
  | ⟨2, _⟩ => exact Fin.ext rfl

/-- Entry (d, b) of the segment sums: over the channels, and over the pixels of segment d, the argument at
    (b, channel, pixel row, pixel column); both sums from zero. -/
theorem sums_apply (X : S8x128x512x512.Idx → EReal) (d : Fin 1023) (b : Fin 8) :
    sums (F := Ideal) X (ix2 d b)
      = 0 + ∑ ch : Fin 128, (0 + ∑ e ∈ Cert.LibScatterRows.inEdges (N := 1023) seg d,
          X (ix4 b ch ⟨e.val / 512, row_lt e⟩ ⟨e.val % 512, col_lt e⟩)) := by
  unfold sums
  rw [reduce_apply]
  refine congrArg (0 + ·) (Finset.sum_congr rfl fun ch _ => ?_)
  have hk : (⟨128 * b.val + ch.val, by have := b.isLt; have := ch.isLt; omega⟩ : Fin 1024).val = 128 * b.val + ch.val := rfl
  rw [cols_apply _ d b ch _ hk, scattered_apply]
  refine congrArg (0 + ·) (Finset.sum_congr rfl fun e _ => ?_)
  rw [turned_apply, planes_apply X b ch e _ hk]

end Cert.ReferenceIdeal.RefValue

end
-- ==== Proof.Bridge.lean ====
import proofs.«127440_j78477642433377_1_alg».proof.Proof.KernelSums
import proofs.«127440_j78477642433377_1_alg».proof.Proof.RefSums
import proofs.«127440_j78477642433377_1_alg».proof.Proof.ChanSum

/-! The two programs' results are one function of the argument x.

Both programs end with the same operations `tail` applied to a 1023 x 8 matrix of segment sums. One program sums
over the channels first and then over the pixels of a segment; the other, for each channel, sums over the pixels of
the segment and then over the channels. Over the extended reals a finite double sum may be taken in either order,
and adding zero changes nothing, so the two matrices of segment sums agree entry by entry; the columns of segment
numbers and the two tables of constants are the same in both programs. -/

noncomputable section

namespace Cert.Proof.Bridge

open Idealize.ShloMosaic Idealize.ShloMosaic.ValueIdx

/-- The two programs build the column of segment numbers by the same operations on the same shapes. -/
theorem seg_eq : Cert.KernelIdeal.TailValue.seg = Cert.ReferenceIdeal.RefValue.seg := rfl

/-- The two programs apply the same operations, with the same two tables of constants, to the segment sums. -/
theorem tail_eq (s : (⟨2, ![1023, 8]⟩ : Shape).Idx → EReal) :
    Cert.KernelIdeal.TailValue.tail (F := Ideal) s = Cert.ReferenceIdeal.RefValue.tail (F := Ideal) s := rfl

/-- Entry by entry, the two matrices of segment sums agree: the order of the two sums is exchanged. -/
theorem sums_eq (X : (⟨4, ![8, 128, 512, 512]⟩ : Shape).Idx → EReal) :
    Cert.KernelIdeal.TailValue.sums (F := Ideal) (Cert.DiagPool.chanPlane X)
      = Cert.ReferenceIdeal.RefValue.sums (F := Ideal) X := by
  funext j
  obtain ⟨d, b, rfl⟩ : ∃ (d : Fin 1023) (b : Fin 8), j = ix2 d b := ⟨j 0, j 1, eq_ix2 j⟩
  rw [Cert.KernelIdeal.TailValue.sums_apply, Cert.ReferenceIdeal.RefValue.sums_apply, seg_eq]
  simp only [Cert.DiagPool.chanPlane_apply, Cert.DiagPool.chanSum, zero_add]
  exact Finset.sum_comm

/-- So the two programs' results are the same function of the argument. -/
theorem bridge (X : (⟨4, ![8, 128, 512, 512]⟩ : Shape).Idx → EReal) :
    Cert.KernelIdeal.TailValue.tail (F := Ideal) (Cert.KernelIdeal.TailValue.sums (F := Ideal) (Cert.DiagPool.chanPlane X))
      = Cert.ReferenceIdeal.RefValue.tail (F := Ideal) (Cert.ReferenceIdeal.RefValue.sums (F := Ideal) X) := by
  rw [sums_eq, tail_eq]

end Cert.Proof.Bridge

end
-- ==== Proof.lean ====
/-
  Diagonal pooling of x : [8, 128, 512, 512]: the kernel program and the reference compute the same [8, 1, 513] array over
  the extended reals.

  Both programs number the 512 x 512 pixels by diagonal (pixel (r, c) lies on diagonal c - r + 511, 1023 diagonals in
  all), add x up over each diagonal and over the 128 channels, pick the 513 central diagonals, and divide each by the
  same table of constants (128 times the diagonal's length). They differ in the order of the two additions:

    the kernel program first adds the channels — a pipelined region that walks each image's 8 slabs of 16 channels,
    keeps a running total per pixel and writes it out after the last slab — and then adds each diagonal's pixels of
    that one plane;
    the reference first adds each diagonal's pixels for every channel separately, then adds the 128 channels.

  A finite double sum of extended reals may be taken in either order, and both start from zero, so the two tables of
  per-diagonal sums are equal entry by entry; what is done to them afterwards is one and the same function. Nothing here
  needs the inputs to be finite.

  The kernel program's run, the reference's run and the equation between the two results are proved in the modules
  imported below; the word-level kernel program only has to run and leave its argument alone, and its idealization
  rewrote no operation.
-/
import proofs.«127440_j78477642433377_1_alg».proof.Defs
import proofs.«127440_j78477642433377_1_alg».proof.Proof.Gen.Kernel
import proofs.«127440_j78477642433377_1_alg».proof.Proof.Gen.Kernel.Frame
import proofs.«127440_j78477642433377_1_alg».proof.Proof.Gen.KernelIdeal
import proofs.«127440_j78477642433377_1_alg».proof.Proof.Gen.KernelIdeal.Frame
import proofs.«127440_j78477642433377_1_alg».proof.Proof.Gen.ReferenceIdeal
import proofs.«127440_j78477642433377_1_alg».proof.Proof.Gen.Pre_finite_inputs
import proofs.«127440_j78477642433377_1_alg».proof.Proof.KernelRun
import proofs.«127440_j78477642433377_1_alg».proof.Proof.RefRun
import proofs.«127440_j78477642433377_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its argument as it found it. -/
theorem frame_k : @Cert.frame_Kernel Cert.Kernel.Gen.facts Cert.Pre_finite_inputs.Gen.facts :=
  fun m ρ _ => Cert.Kernel.Gen.frame m ρ

/-- So does its idealization. -/
theorem frame_ki : @Cert.frame_KernelIdeal Cert.KernelIdeal.Gen.facts Cert.Pre_finite_inputs.Gen.facts :=
  fun m ρ _ => Cert.KernelIdeal.Gen.frame m ρ

/-- The reference runs and leaves its argument as it found it: its run, with the result forgotten. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RefValue.run (F := Ideal) m ρ)

/-- From memories that agree on the argument, both idealized programs end with the shared tail of the per-diagonal
    sums: the kernel's of the channel sums, the reference's of the argument — one array, by the exchange of the
    two additions. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.RefValue.run (F := Ideal) m' ρ')
  rw [hagree c]
  exact (Cert.Proof.Bridge.bridge _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
